-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsBody.Cases.lean ====
/-
  The grid of the fused two-layer graph convolution has 2 × 25 = 50 points, visited in order. The body has three
  guarded parts: the first (p = 0 and j = 0) fills the first scratch with x · W1; the second (p = 0) computes one
  400-row slice relu(adj_j · s1 + b1) · W2 of the second scratch, at rows 400·j …; the third (p = 1) stores
  adj_j · s2 + b2 into the output block. Here: which points meet which guard, in closed form over the point's
  number; where the slice's rows start; when the output block is idle, fetched and written back; and the names of
  the staging and scratch memrefs the body is called with.
-/
import proofs.«128231_g79963701117591_cont_9to1c4b_293_3_alg».proof.Proof.Gen.Kernel.Frame
import proofs.«128231_g79963701117591_cont_9to1c4b_293_3_alg».proof.Proof.Gen.Kernel.Skeleton
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three guards over the point's number -/

/-- The first guard, as the body computes it from the coordinates: p = 0 and j = 0. -/
abbrev atStart (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 only. -/
theorem atStart_iff : ∀ t : Fin cfg0.N, atStart (grid0.coords t) ↔ t.val = 0 :=
  (by decide +kernel : ∀ t : Fin grid0.N, atStart (grid0.coords t) ↔ t.val = 0)

/-- The second guard: p = 0. -/
abbrev inFirstPass (i : grid0.Coords) : Prop := k0_cond2 i = 1#1

/-- The first pass over the adjacency's row blocks is points 0 … 24. -/
theorem inFirstPass_iff : ∀ t : Fin cfg0.N, inFirstPass (grid0.coords t) ↔ t.val < 25 :=
  (by decide +kernel : ∀ t : Fin grid0.N, inFirstPass (grid0.coords t) ↔ t.val < 25)

/-- The third guard: p = 1. -/
abbrev inSecondPass (i : grid0.Coords) : Prop := k0_cond3 i = 1#1

/-- The second pass is points 25 … 49. -/
theorem inSecondPass_iff : ∀ t : Fin cfg0.N, inSecondPass (grid0.coords t) ↔ 25 ≤ t.val :=
  (by decide +kernel : ∀ t : Fin grid0.N, inSecondPass (grid0.coords t) ↔ 25 ≤ t.val)

/-- In the first pass, point t's slice of the second scratch starts at row 400·t, column 0. -/
theorem sliceStart : ∀ t : Fin cfg0.N, t.val < 25 → k0_off1 (grid0.coords t) = ![400 * t.val, 0] :=
  (by decide +kernel : ∀ t : Fin grid0.N, t.val < 25 → k0_off1 (grid0.coords t) = ![400 * t.val, 0])

theorem pointCount : cfg0.N = 50 := N_0

/-! ## The windows' schedule -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The output block is idle exactly in the first pass, -/
theorem outIdle : ∀ t : Fin cfg0.N, t.val < 25 → cfg0.idle 6 (grid0.coords t) = true :=
  (by decide +kernel : ∀ t : Fin grid0.N, t.val < 25 → cfg0.idle 6 (grid0.coords t) = true)
theorem outLive : ∀ t : Fin cfg0.N, 25 ≤ t.val → cfg0.idle 6 (grid0.coords t) = false :=
  (by decide +kernel : ∀ t : Fin grid0.N, 25 ≤ t.val → cfg0.idle 6 (grid0.coords t) = false)
/-- is written back exactly at the points of the second pass, -/
theorem outFlush : ∀ t : Fin cfg0.N, (cfg0.win 6).flush t = true ↔ 25 ≤ t.val :=
  (by decide +kernel : ∀ t : Fin grid0.N, win0_6.flush t = true ↔ 25 ≤ t.val)
/-- and point 25 + b writes back block b: rows 400·b …. -/
theorem outIndex : ∀ t : Fin cfg0.N, 25 ≤ t.val → (cfg0.win 6).index t = ![t.val - 25, 0] :=
  (by decide +kernel : ∀ t : Fin grid0.N, 25 ≤ t.val → win0_6.index t = ![t.val - 25, 0])

/-! ## The memrefs the body is called with -/

abbrev stg0 (t : Fin cfg0.N) : Memref sig .tc .vmem S10000x128 .f32 := win0_0.stage (cfg0.slots t 0)
abbrev stg0w (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev stg1w (t : Fin cfg0.N) : (stg1 t).IsWhole := hstage0_1 ((cfg0.slots t 1).cast nbuf0_1)
abbrev stg2 (t : Fin cfg0.N) : Memref sig .tc .vmem S128x128 .f32 := win0_2.stage (cfg0.slots t 2)
abbrev stg2w (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev stg3w (t : Fin cfg0.N) : (stg3 t).IsWhole := hstage0_3 ((cfg0.slots t 3).cast nbuf0_3)
abbrev stg4 (t : Fin cfg0.N) : Memref sig .tc .vmem S128x128 .f32 := win0_4.stage (cfg0.slots t 4)
abbrev stg4w (t : Fin cfg0.N) : (stg4 t).IsWhole := hstage0_4 ((cfg0.slots t 4).cast nbuf0_4)
abbrev stg5 (t : Fin cfg0.N) : Memref sig .tc .vmem S1x128 .f32 := win0_5.stage (cfg0.slots t 5)
abbrev stg5w (t : Fin cfg0.N) : (stg5 t).IsWhole := hstage0_5 ((cfg0.slots t 5).cast nbuf0_5)
abbrev stg6 (t : Fin cfg0.N) : Memref sig .tc .vmem S400x128 .f32 := win0_6.stage (cfg0.slots t 6)
abbrev stg6w (t : Fin cfg0.N) : (stg6 t).IsWhole := hstage0_6 ((cfg0.slots t 6).cast nbuf0_6)

/-- The two scratch operands: the first holds x · W1, the second the slices of relu(adj · s1 + b1) · W2. -/
abbrev scr1 : Memref sig .tc .vmem S10000x128 .f32 := Memref.whole cc0_scratch0
abbrev scr2 : Memref sig .tc .vmem S10000x128 .f32 := Memref.whole cc0_scratch1

/-- What the region is entered with besides the windows: both scratch operands at some contents and the
    generator register at some state. -/
theorem entryInv (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

end Cert.Kernel.Body

end
-- ==== Proof.BitsBody.SliceStep.lean ====
/-
  The body at a point of the first pass after the first one. Only the second guarded part runs: it reads the
  adjacency's row block, the first scratch whole, the bias row and W2, and stores relu(adj_j · s1 + b1) · W2 into
  the 400 rows of the second scratch that start where the point's number says. Everything else is handed back as
  it was found. What the second scratch holds afterwards is its contents before with that one store written over
  them; the store is found by running the body.
-/
import proofs.«128231_g79963701117591_cont_9to1c4b_293_3_alg».proof.Proof.BitsBody.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at such a point, on whole memrefs: inputs, output block and first scratch at named contents
    in and out; the second scratch at raw contents `f2` in, and out at `f2` with the run's stores written over it. -/
noncomputable def sliceStep (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) (s1 : Vec F S10000x128 .f32) (f2 : arg10.view.ty.Contents (Elt F)) :
    { L2 : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare s1 ∗ (arg10.view.loc (c : Thread nD τ) ↦[arg10.view.set]{fullShare} f2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare s1 ∗ (arg10.view.loc (c : Thread nD τ) ↦[arg10.view.set]{fullShare} arg10.view.writes (Elt F) f2 L2)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2', %hf2, H2⟩, ⟨%f3, %hf3, H3⟩, ⟨%f4, %hf4, H4⟩, ⟨%f5, %hf5, H5⟩, ⟨%f6, %hf6, H6⟩, ⟨%fs1, %hfs1, HS1⟩, HS2, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS1]
    · iexists _; isplitr; · ipureintro; exact harg9.read_unread _
      iexact HS1
    iexact HS2

end Cert.Kernel.Body

end
-- ==== Proof.BitsBody.FirstPoint.lean ====
/-
  The body at the grid's first point. The first guarded part stores x · W1 over the whole first scratch; the
  second then reads it back and stores the first 400-row slice of the second scratch. Both scratches come in at
  anything and are handed back at some contents with the run's stores written over them.
-/
import proofs.«128231_g79963701117591_cont_9to1c4b_293_3_alg».proof.Proof.BitsBody.SliceStep

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at the first point: inputs and output block at named contents in and out; each scratch at
    anything in, and out at some contents with the run's stores (found by running the body) written over them. -/
noncomputable def firstPoint (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) :
    { L : List (View.Piece (Elt F) S10000x128 .f32) × List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L.1) ∗ (∃ f, arg10.view.loc (c : Thread nD τ) ↦[arg10.view.set]{fullShare} arg10.view.writes (Elt F) f L.2)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__gcn_body_eq_skeleton]; unfold cc0__gcn_body_skel
    unfold owns
    iintro ⟨⟨%f0, %hf0, H0⟩, ⟨%f1', %hf1, H1⟩, ⟨%f2', %hf2, H2⟩, ⟨%f3, %hf3, H3⟩, ⟨%f4, %hf4, H4⟩, ⟨%f5, %hf5, H5⟩, ⟨%f6, %hf6, H6⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS1]
    · iexists _; iexact HS1
    iexists _; iexact HS2

end Cert.Kernel.Body

end
-- ==== Proof.BitsBody.OutputStep.lean ====
/-
  The body at a point of the second pass. Only the third guarded part runs: it reads the adjacency's row block,
  the second scratch whole and the second bias row, and stores adj_j · s2 + b2 over the whole output block. Both
  scratches are handed back as found.
-/
import proofs.«128231_g79963701117591_cont_9to1c4b_293_3_alg».proof.Proof.BitsBody.FirstPoint

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at such a point: inputs and the first scratch at named contents in and out; the second
    scratch at the raw contents that read `s2`, in and out; the output block at anything in, and out at some
    contents with the run's store written over them. -/
noncomputable def outputStep (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬atStart i) (hc1 : ¬inFirstPass i) (hc2 : inSecondPass i)
    (x0 : Vec F S10000x128 .f32) (x1 : Vec F S400x10000 .f32) (x2 : Vec F S128x128 .f32) (x3 : Vec F S1x128 .f32) (x4 : Vec F S128x128 .f32) (x5 : Vec F S1x128 .f32) (s1 : Vec F S10000x128 .f32) (s2 : Vec F S10000x128 .f32) :
    { L6 : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s1 ∗ (arg10.view.loc (c : Thread nD τ) ↦[arg10.view.set]{fullShare} harg10.unread s2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare s1 ∗ (arg10.view.loc (c : Thread nD τ) ↦[arg10.view.set]{fullShare} harg10.unread s2)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2', %hf2, H2⟩, ⟨%f3, %hf3, H3⟩, ⟨%f4, %hf4, H4⟩, ⟨%f5, %hf5, H5⟩, ⟨%d6, %f6, -, H6⟩, ⟨%fs1, %hfs1, HS1⟩, HS2, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS1]
    · iexists _; isplitr; · ipureintro; exact harg9.read_unread _
      iexact HS1
    iexact HS2

end Cert.Kernel.Body

end
-- ==== Proof.BitsBody.Stores.lean ====
/-
  What the body's stores are at each kind of point, over the inputs' named contents: at a first-pass point one
  slice relu(adj_j · s1 + b1) · W2 at the point's rows; at the first point also x · W1 over the whole first
  scratch (and the slice is computed from it); at a second-pass point adj_j · s2 + b2 over the whole output block.
  A load of a whole memref held at the raw contents that read X reads X.
-/
import proofs.«128231_g79963701117591_cont_9to1c4b_293_3_alg».proof.Proof.BitsBody.OutputStep
import Idealize.ShloMosaic.Lib.WholeRead

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros2 : (![0, 0] : Fin 2 → ℕ) = fun _ => 0 :=
  funext fun a => by match a with | ⟨0, _⟩ => rfl | ⟨1, _⟩ => rfl

/-- Loading all of a whole memref held at the contents that read `x` gives `x`. -/
theorem wholeLoad {S : Shape} {e : EltTy} (M : Memref sig .tc .vmem S e) (h : M.IsWhole) (x : S.Idx → Elt F e)
    {off : Fin S.rank → ℕ} (hz : off = fun _ => 0) (inb : ∀ a, off a + S.size a ≤ S.size a) :
    View.readAt (Elt F) M.view (Rect.unit off S.size inb).toLoadRect (h.unread x) = x := by
  rw [View.readAt_eq_ld, h.read_unread, View.ld_unit_zero hz]

/-- One store over the whole shape leaves its payload, whatever was there. -/
theorem read_whole_store {sig' : RefSig} {κ : Kind} {sp : Space} {S : Shape} {e : EltTy} (v : View sig' κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  subst hz; funext y
  exact View.read_writes_cons_unit_of_mem v f inb w [] y y rfl (fun a => (Nat.zero_add _).symm)

/-- At a later point of the first pass the body stores exactly the point's slice. -/
theorem sliceStep_stores (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) (s1 : Vec F S10000x128 .f32) (f2 : arg10.view.ty.Contents (Elt F)) :
    (sliceStep c i arg2 harg2 arg3 harg3 arg4 harg4 arg5 harg5 arg6 harg6 arg7 harg7 arg8 harg8 arg9 harg9 arg10 harg10 hc0 hc1 hc2 x0 x1 x2 x3 x4 x5 x6 s1 f2).1
      = [⟨Rect.unit (s := S10000x128) (k0_off1 i) S400x128.size (k0_off1_inb i hc1), k0_pay2 x1 s1 x3 x4⟩] := by
  unfold sliceStep
  dsimp only
  rw [wholeLoad arg3 harg3 x1 zeros2, wholeLoad arg9 harg9 s1 zeros2, wholeLoad arg5 harg5 x3 zeros2, wholeLoad arg6 harg6 x4 zeros2]

/-- At the first point the first scratch ends at x · W1, -/
theorem firstPoint_first (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) (f1 : arg9.view.ty.Contents (Elt F)) :
    arg9.view.read (Elt F) (arg9.view.writes (Elt F) f1 (firstPoint c i arg2 harg2 arg3 harg3 arg4 harg4 arg5 harg5 arg6 harg6 arg7 harg7 arg8 harg8 arg9 harg9 arg10 harg10 hc0 hc1 hc2 x0 x1 x2 x3 x4 x5 x6).1.1)
      = k0_pay1 x0 x2 := by
  unfold firstPoint
  dsimp only
  sl_unfold_run_names
  rw [wholeLoad arg2 harg2 x0 zeros2, wholeLoad arg4 harg4 x2 zeros2]
  exact read_whole_store arg9.view f1 zeros2 _ _

/-- and the second scratch gets the first slice, computed from x · W1. -/
theorem firstPoint_second (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) :
    (firstPoint c i arg2 harg2 arg3 harg3 arg4 harg4 arg5 harg5 arg6 harg6 arg7 harg7 arg8 harg8 arg9 harg9 arg10 harg10 hc0 hc1 hc2 x0 x1 x2 x3 x4 x5 x6).1.2
      = [⟨Rect.unit (s := S10000x128) (k0_off1 i) S400x128.size (k0_off1_inb i hc1), k0_pay2 x1 (k0_pay1 x0 x2) x3 x4⟩] := by
  unfold firstPoint
  dsimp only
  sl_unfold_run_names
  rw [wholeLoad arg3 harg3 x1 zeros2, wholeLoad arg2 harg2 x0 zeros2, wholeLoad arg4 harg4 x2 zeros2,
    wholeLoad arg5 harg5 x3 zeros2, wholeLoad arg6 harg6 x4 zeros2, View.readCov_unit_zero arg9.view zeros2]

/-- At a point of the second pass the output block ends at adj_j · s2 + b2, whatever it held. -/
theorem outputStep_block (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬atStart i) (hc1 : ¬inFirstPass i) (hc2 : inSecondPass i)
    (x0 : Vec F S10000x128 .f32) (x1 : Vec F S400x10000 .f32) (x2 : Vec F S128x128 .f32) (x3 : Vec F S1x128 .f32) (x4 : Vec F S128x128 .f32) (x5 : Vec F S1x128 .f32) (s1 : Vec F S10000x128 .f32) (s2 : Vec F S10000x128 .f32) (f6 : arg8.view.ty.Contents (Elt F)) :
    arg8.view.read (Elt F) (arg8.view.writes (Elt F) f6 (outputStep c i arg2 harg2 arg3 harg3 arg4 harg4 arg5 harg5 arg6 harg6 arg7 harg7 arg8 harg8 arg9 harg9 arg10 harg10 hc0 hc1 hc2 x0 x1 x2 x3 x4 x5 s1 s2).1)
      = k0_pay3 x1 s2 x5 := by
  unfold outputStep
  dsimp only
  rw [wholeLoad arg3 harg3 x1 zeros2, wholeLoad arg10 harg10 s2 zeros2, wholeLoad arg7 harg7 x5 zeros2]
  exact read_whole_store arg8.view f6 zeros2 _ _

end Cert.Kernel.Body

end
-- ==== Proof.BitsBody.Carried.lean ====
/-
  What the two scratches hold from point to point. The first is x · W1 from the first point on. The second is
  filled 400 rows at a time: point t of the first pass stores relu(adj_t · s1 + b1) · W2 at rows 400·t …, so after
  point t rows below 400·(t + 1) hold their final values and the rows above still hold whatever the buffer held
  at entry. Row r's final value is entry (r mod 400) of the slice of point r div 400. After the first pass every
  row is final, and the second pass reads the scratch whole.
-/
import proofs.«128231_g79963701117591_cont_9to1c4b_293_3_alg».proof.Proof.BitsBody.Cases
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The grid's first point. -/
def firstPt : Fin cfg0.N := ⟨0, by rw [pointCount]; omega⟩

/-- x · W1: the inputs' blocks are the whole arrays, read at the first point. -/
def support1 (c : Dev nD) : Vec F S10000x128 .f32 := k0_pay1 (iblk m c 0 firstPt) (iblk m c 2 firstPt)

/-- The slice point `t` stores: relu(adj_t · s1 + b1) · W2, a 400 × 128 block. -/
def slicePay (c : Dev nD) (t : Fin cfg0.N) : Vec F S400x128 .f32 :=
  k0_pay2 (iblk m c 1 t) (support1 m c) (iblk m c 3 t) (iblk m c 4 t)

/-- The point whose slice holds row `y 0`: the row divided by 400. -/
def rowPoint (y : S10000x128.Idx) : Fin cfg0.N :=
  ⟨(y 0).val / 400, by have := ValueIdx.idx2_lt0 y; rw [pointCount]; omega⟩

/-- The position of `y` within that slice: the row modulo 400, the same column. -/
def rowLocal (y : S10000x128.Idx) : S400x128.Idx :=
  ValueIdx.ix2 ⟨(y 0).val % 400, Nat.mod_lt _ (by omega)⟩ ⟨(y 1).val, ValueIdx.idx2_lt1 y⟩

/-- The second scratch once every slice is stored. -/
def support2 (c : Dev nD) : Vec F S10000x128 .f32 := fun y => slicePay m c (rowPoint y) (rowLocal y)

/-- The output block point `t` of the second pass stores: adj_t · s2 + b2. -/
def outPay (c : Dev nD) (t : Fin cfg0.N) : Vec F S400x128 .f32 :=
  k0_pay3 (iblk m c 1 t) (support2 m c) (iblk m c 5 t)

/-- Contents `d` of the second scratch whose rows below 400·k are final. -/
def FilledBelow (c : Dev nD) (k : ℕ) (d : Vec F S10000x128 .f32) : Prop :=
  ∀ y : S10000x128.Idx, (y 0).val < 400 * k → d y = support2 m c y

theorem filledBelow_zero (c : Dev nD) (d : Vec F S10000x128 .f32) : FilledBelow m c 0 d :=
  fun y hy => absurd hy (by omega)

/-- All 25 slices stored: the scratch is `support2`. -/
theorem eq_support2_of_filled (c : Dev nD) (d : Vec F S10000x128 .f32) (h : FilledBelow m c 25 d) : d = support2 m c :=
  funext fun y => h y (by have := ValueIdx.idx2_lt0 y; omega)

theorem filledBelow_support2 (c : Dev nD) (k : ℕ) : FilledBelow m c k (support2 m c) := fun _ _ => rfl

/-- Storing point `t`'s slice at rows 400·t … over contents whose rows below 400·t are final leaves the rows
    below 400·(t + 1) final: a row of the slice reads the slice's payload at its position, a row above it reads
    what was there. -/
theorem filledBelow_step {sig' : RefSig} {κ : Kind} {sp : Space} (v : View sig' κ sp S10000x128 .f32) (f : v.ty.Contents (Elt F))
    (c : Dev nD) (t : Fin cfg0.N) (ht : t.val < 25)
    (inb : ∀ a, k0_off1 (grid0.coords t) a + S400x128.size a ≤ S10000x128.size a)
    (h : FilledBelow m c t.val (v.read (Elt F) f)) :
    FilledBelow m c (t.val + 1)
      (v.read (Elt F) (v.writes (Elt F) f [⟨Rect.unit (s := S10000x128) (k0_off1 (grid0.coords t)) S400x128.size inb, slicePay m c t⟩])) := by
  intro y hy
  by_cases hlo : 400 * t.val ≤ (y 0).val
  · have hp : rowPoint y = t := Fin.ext (by show (y 0).val / 400 = t.val; omega)
    rw [View.read_writes_cons_rows_of_mem v f inb (slicePay m c t) [] y (rowLocal y) (sliceStart t ht)
      (by show (y 0).val = 400 * t.val + (y 0).val % 400; omega) rfl]
    show slicePay m c t (rowLocal y) = slicePay m c (rowPoint y) (rowLocal y)
    rw [hp]
  · rw [View.read_writes_cons_rows_of_not_mem v f inb (slicePay m c t) [] y (sliceStart t ht) rfl (Or.inl (by omega))]
    exact h y (by omega)

end Cert.Kernel.Body

end
-- ==== Proof.BitsBody.Obligation.lean ====
/-
  The pipeline's proof data for the fused kernel and the body's obligation at every point. The invariant between
  points says what the scratches hold: before the first point anything; afterwards the first scratch is x · W1 and
  the second has its rows below 400·min(n, 25) final. The inputs' buffers hold their blocks at every point. The
  output block is idle through the first pass (the body leaves it as found and it is not written back) and in the
  second pass holds adj_t · s2 + b2, which is written back to rows 400·(t − 25) ….
-/
import proofs.«128231_g79963701117591_cont_9to1c4b_293_3_alg».proof.Proof.BitsBody.Stores
import proofs.«128231_g79963701117591_cont_9to1c4b_293_3_alg».proof.Proof.BitsBody.Carried

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at entry the scratches hold anything; later the first holds x · W1 and the second some
    contents whose rows below 400·min(n, 25) are final. -/
def carriedInv (c : Dev nD) : ℕ → sProp 𝕄
  | 0 => Pipeline.ΦA spec0 c
  | n + 1 => iprop(iprop(owns (c : Thread nD τ) scr1 fullShare (support1 m c)
      ∗ (∃ f, ⌜FilledBelow m c (min (n + 1) 25) (scr2.view.read (Elt F) f)⌝ ∗ (scr2.view.loc (c : Thread nD τ) ↦[scr2.view.set]{fullShare} f)))
      ∗ (∃ r, prngReg c r))

theorem carriedInv_pos (c : Dev nD) (n : ℕ) (hn : n ≠ 0) :
    carriedInv m c n = iprop(iprop(owns (c : Thread nD τ) scr1 fullShare (support1 m c)
      ∗ (∃ f, ⌜FilledBelow m c (min n 25) (scr2.view.read (Elt F) f)⌝ ∗ (scr2.view.loc (c : Thread nD τ) ↦[scr2.view.set]{fullShare} f)))
      ∗ (∃ r, prngReg c r)) := by
  cases n with
  | zero => exact absurd rfl hn
  | succ n => rfl

theorem carriedInv_succ (c : Dev nD) (n : ℕ) :
    carriedInv m c (n + 1) = iprop(iprop(owns (c : Thread nD τ) scr1 fullShare (support1 m c)
      ∗ (∃ f, ⌜FilledBelow m c (min (n + 1) 25) (scr2.view.read (Elt F) f)⌝ ∗ (scr2.view.loc (c : Thread nD τ) ↦[scr2.view.set]{fullShare} f)))
      ∗ (∃ r, prngReg c r)) := rfl

/-! ## The proof data -/

/-- Core `c`'s proof data: the arrays as the region finds them; after the body each input's buffer at its block and
    the output's at adj_t · s2 + b2 (read only at the second pass's points: before them the window is idle). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outPay m c t
  Φ t := carriedInv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outPay m c t := by dsimp only [dats]

theorem found_0 (c : Dev nD) (t : Fin cfg0.N) (d) : (dats m 0 c).before 0 t d = iblk m c 0 t :=
  before0_0_of m (dats m 0 c) (A_eq m c 0) (after_0 m c) t d
theorem found_1 (c : Dev nD) (t : Fin cfg0.N) (d) : (dats m 0 c).before 1 t d = iblk m c 1 t :=
  before0_1_of m (dats m 0 c) (A_eq m c 1) (after_1 m c) t d
theorem found_2 (c : Dev nD) (t : Fin cfg0.N) (d) : (dats m 0 c).before 2 t d = iblk m c 2 t :=
  before0_2_of m (dats m 0 c) (A_eq m c 2) (after_2 m c) t d
theorem found_3 (c : Dev nD) (t : Fin cfg0.N) (d) : (dats m 0 c).before 3 t d = iblk m c 3 t :=
  before0_3_of m (dats m 0 c) (A_eq m c 3) (after_3 m c) t d
theorem found_4 (c : Dev nD) (t : Fin cfg0.N) (d) : (dats m 0 c).before 4 t d = iblk m c 4 t :=
  before0_4_of m (dats m 0 c) (A_eq m c 4) (after_4 m c) t d
theorem found_5 (c : Dev nD) (t : Fin cfg0.N) (d) : (dats m 0 c).before 5 t d = iblk m c 5 t :=
  before0_5_of m (dats m 0 c) (A_eq m c 5) (after_5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: by the point's number it is the first point, a later point of the first pass, or a point
    of the second pass; in each the matching triple applies, the scratches are taken from the invariant and given
    back with what the stores leave. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5]
  rw [show (dats m 0 c).owesAt () t.succ = (dats m 0 c).owesAt () t.castSucc from rfl]
  rw [show (dats m 0 c).Φ t.succ = carriedInv m c (t.val + 1) from rfl]
  rw [show (dats m 0 c).Φ t.castSucc = carriedInv m c t.val from rfl]
  rw [show (dats m 0 c).leavesExact 0 t = owns (c : Thread nD τ) (stg0 t) fullShare ((dats m 0 c).after 0 t) from by
    unfold Dat.leavesExact; rw [live0 t], after_0]
  rw [show (dats m 0 c).leavesExact 1 t = owns (c : Thread nD τ) (stg1 t) fullShare ((dats m 0 c).after 1 t) from by
    unfold Dat.leavesExact; rw [live1 t], after_1]
  rw [show (dats m 0 c).leavesExact 2 t = owns (c : Thread nD τ) (stg2 t) fullShare ((dats m 0 c).after 2 t) from by
    unfold Dat.leavesExact; rw [live2 t], after_2]
  rw [show (dats m 0 c).leavesExact 3 t = owns (c : Thread nD τ) (stg3 t) fullShare ((dats m 0 c).after 3 t) from by
    unfold Dat.leavesExact; rw [live3 t], after_3]
  rw [show (dats m 0 c).leavesExact 4 t = owns (c : Thread nD τ) (stg4 t) fullShare ((dats m 0 c).after 4 t) from by
    unfold Dat.leavesExact; rw [live4 t], after_4]
  rw [show (dats m 0 c).leavesExact 5 t = owns (c : Thread nD τ) (stg5 t) fullShare ((dats m 0 c).after 5 t) from by
    unfold Dat.leavesExact; rw [live5 t], after_5]
  have hN : t.val < 50 := lt_of_lt_of_eq t.isLt pointCount
  by_cases h1 : t.val < 25
  · have hfl : (cfg0.win 6).flush t = false := Bool.eq_false_iff.mpr fun h => by have := (outFlush t).mp h; omega
    rw [(dats m 0 c).leavesExact_idle 6 t (outIdle t h1) hfl]
    have hs2 : ¬inSecondPass (grid0.coords t) := fun h => by have := (inSecondPass_iff t).mp h; omega
    by_cases hz : t.val = 0
    · -- the first point: both scratches come in at anything
      have htf : t = firstPt := Fin.ext hz
      have hs1 : k0_pay1 (iblk m c 0 t) (iblk m c 2 t) = support1 m c := by rw [htf]; rfl
      rw [show carriedInv m c t.val = Pipeline.ΦA spec0 c from by rw [hz]; rfl, entryInv, carriedInv_succ,
        show min (t.val + 1) 25 = t.val + 1 from by omega]
      iintro ⟨⟨⟨HS1, HS2⟩, Hg⟩, Ho, ⟨%d0, H0⟩, ⟨%e1, H1⟩, ⟨%e2, H2⟩, ⟨%e3, H3⟩, ⟨%e4, H4⟩, ⟨%e5, H5⟩, ⟨%e6, H6⟩⟩
      iapply ((firstPoint c (grid0.coords t) _ _ _ _ _ _ _ _ _ _ _ _ _ _ _ (Memref.isWhole_whole _) _ (Memref.isWhole_whole _) ((atStart_iff t).mpr hz) ((inFirstPass_iff t).mpr h1) hs2
        (iblk m c 0 t) (iblk m c 1 t) (iblk m c 2 t) (iblk m c 3 t) (iblk m c 4 t) (iblk m c 5 t) ((dats m 0 c).before 6 t e6)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      iintro ⟨H0, H1, H2, H3, H4, H5, H6, ⟨%g1, HS1⟩, ⟨%g2, HS2⟩⟩
      isplitl [HS1 HS2 Hg]
      · isplitl [HS1 HS2]
        · isplitl [HS1]
          · unfold owns; iexists _; isplitr; swap; · iexact HS1
            ipureintro; rw [firstPoint_first]; exact hs1
          · iexists _; isplitr; swap; · iexact HS2
            ipureintro
            rw [firstPoint_second, hs1]
            exact filledBelow_step m _ g2 c t h1 _ (by rw [hz]; exact filledBelow_zero m c _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a later point of the first pass: one more slice
      rw [carriedInv_pos m c t.val hz, carriedInv_succ]
      iintro ⟨⟨⟨HS1, ⟨%f2, %hf2, HS2⟩⟩, Hg⟩, Ho, ⟨%d0, H0⟩, ⟨%e1, H1⟩, ⟨%e2, H2⟩, ⟨%e3, H3⟩, ⟨%e4, H4⟩, ⟨%e5, H5⟩, ⟨%e6, H6⟩⟩
      iapply ((sliceStep c (grid0.coords t) _ _ _ _ _ _ _ _ _ _ _ _ _ _ _ (Memref.isWhole_whole _) _ (Memref.isWhole_whole _) (fun h => hz ((atStart_iff t).mp h)) ((inFirstPass_iff t).mpr h1) hs2
        (iblk m c 0 t) (iblk m c 1 t) (iblk m c 2 t) (iblk m c 3 t) (iblk m c 4 t) (iblk m c 5 t) ((dats m 0 c).before 6 t e6) (support1 m c) f2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      iintro ⟨H0, H1, H2, H3, H4, H5, H6, HS1, HS2⟩
      isplitl [HS1 HS2 Hg]
      · isplitl [HS1 HS2]
        · isplitl [HS1]
          · iexact HS1
          · iexists _; isplitr; swap; · iexact HS2
            ipureintro
            rw [sliceStep_stores, show min (t.val + 1) 25 = t.val + 1 from by omega]
            exact filledBelow_step m _ f2 c t h1 _ (by rw [show min t.val 25 = t.val from by omega] at hf2; exact hf2)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- the second pass: the second scratch is final, the output block is stored whole
    have h2 : 25 ≤ t.val := by omega
    have hz : t.val ≠ 0 := by omega
    rw [show (dats m 0 c).leavesExact 6 t = owns (c : Thread nD τ) (stg6 t) fullShare ((dats m 0 c).after 6 t) from by
      unfold Dat.leavesExact; rw [outLive t h2], after_6]
    rw [carriedInv_pos m c t.val hz, carriedInv_succ]
    rw [show min t.val 25 = 25 from by omega, show min (t.val + 1) 25 = 25 from by omega]
    iintro ⟨⟨⟨HS1, ⟨%f2, %hf2, HS2⟩⟩, Hg⟩, Ho, ⟨%d0, H0⟩, ⟨%e1, H1⟩, ⟨%e2, H2⟩, ⟨%e3, H3⟩, ⟨%e4, H4⟩, ⟨%e5, H5⟩, ⟨%e6, H6⟩⟩
    obtain rfl := (Memref.isWhole_whole cc0_scratch1).eq_unread (eq_support2_of_filled m c _ hf2)
    iapply ((outputStep c (grid0.coords t) _ _ _ _ _ _ _ _ _ _ _ _ _ _ _ (Memref.isWhole_whole _) _ (Memref.isWhole_whole _) (fun h => hz ((atStart_iff t).mp h)) (fun h => h1 ((inFirstPass_iff t).mp h)) ((inSecondPass_iff t).mpr h2)
      (iblk m c 0 t) (iblk m c 1 t) (iblk m c 2 t) (iblk m c 3 t) (iblk m c 4 t) (iblk m c 5 t) (support1 m c) (support2 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS1]; · iexact HS1
    isplitl [HS2]; · iexact HS2
    iintro ⟨H0, H1, H2, H3, H4, H5, ⟨%g6, H6⟩, HS1, HS2⟩
    isplitl [HS1 HS2 Hg]
    · isplitl [HS1 HS2]
      · isplitl [HS1]
        · iexact HS1
        · iexists _; isplitr; swap; · iexact HS2
          ipureintro; rw [Memref.IsWhole.read_unread]; exact filledBelow_support2 m c 25
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro; rw [outputStep_block]; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entry and exit -/

theorem inv_entry (c : Dev nD) : Pipeline.ΦA spec0 c ⊢ (dats m 0 c).Φ 0 :=
  Idealize.SL.BI.Entails.refl _

/-- After the last point the scratches' contents are forgotten. -/
theorem inv_exit (c : Dev nD) : (dats m 0 c).Φ (Fin.last cfg0.N) ⊢ Pipeline.ΦA spec0 c := by
  rw [show (dats m 0 c).Φ (Fin.last cfg0.N) = carriedInv m c cfg0.N from rfl,
    carriedInv_pos m c cfg0.N (by rw [pointCount]; omega), entryInv]
  iintro ⟨⟨HS1, ⟨%f2, -, HS2⟩⟩, Hg⟩
  isplitl [HS1 HS2]
  · isplitl [HS1]
    · iexists _; iexact HS1
    · iexists _; unfold owns; iexists f2; isplitr; swap; · iexact HS2
      ipureintro; rfl
  iexact Hg

/-! ## The run -/

/-- Every weakly fair execution of @main terminates; at the end every windowed array holds what the library
    computes from the proof data and every other unscoped buffer its entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c w => by unfold Dat.share; split <;> rfl)
    (howed := fun _ _ => rfl) (V := V m) (hmain := hmain m Variants.none) (hA := A_eq m) (hin := inv_entry m) (hout := inv_exit m)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IdealBody.Cases.lean ====
/-
  The grid of the fused two-layer graph convolution has 2 × 25 = 50 points, visited in order. The body has three
  guarded parts: the first (p = 0 and j = 0) fills the first scratch with x · W1; the second (p = 0) computes one
  400-row slice relu(adj_j · s1 + b1) · W2 of the second scratch, at rows 400·j …; the third (p = 1) stores
  adj_j · s2 + b2 into the output block. Here: which points meet which guard, in closed form over the point's
  number; where the slice's rows start; when the output block is idle, fetched and written back; and the names of
  the staging and scratch memrefs the body is called with.
-/
import proofs.«128231_g79963701117591_cont_9to1c4b_293_3_alg».proof.Proof.Gen.KernelIdeal.Frame
import proofs.«128231_g79963701117591_cont_9to1c4b_293_3_alg».proof.Proof.Gen.KernelIdeal.Skeleton
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three guards over the point's number -/

/-- The first guard, as the body computes it from the coordinates: p = 0 and j = 0. -/
abbrev atStart (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 only. -/
theorem atStart_iff : ∀ t : Fin cfg0.N, atStart (grid0.coords t) ↔ t.val = 0 :=
  (by decide +kernel : ∀ t : Fin grid0.N, atStart (grid0.coords t) ↔ t.val = 0)

/-- The second guard: p = 0. -/
abbrev inFirstPass (i : grid0.Coords) : Prop := k0_cond2 i = 1#1

/-- The first pass over the adjacency's row blocks is points 0 … 24. -/
theorem inFirstPass_iff : ∀ t : Fin cfg0.N, inFirstPass (grid0.coords t) ↔ t.val < 25 :=
  (by decide +kernel : ∀ t : Fin grid0.N, inFirstPass (grid0.coords t) ↔ t.val < 25)

/-- The third guard: p = 1. -/
abbrev inSecondPass (i : grid0.Coords) : Prop := k0_cond3 i = 1#1

/-- The second pass is points 25 … 49. -/
theorem inSecondPass_iff : ∀ t : Fin cfg0.N, inSecondPass (grid0.coords t) ↔ 25 ≤ t.val :=
  (by decide +kernel : ∀ t : Fin grid0.N, inSecondPass (grid0.coords t) ↔ 25 ≤ t.val)

/-- In the first pass, point t's slice of the second scratch starts at row 400·t, column 0. -/
theorem sliceStart : ∀ t : Fin cfg0.N, t.val < 25 → k0_off1 (grid0.coords t) = ![400 * t.val, 0] :=
  (by decide +kernel : ∀ t : Fin grid0.N, t.val < 25 → k0_off1 (grid0.coords t) = ![400 * t.val, 0])

theorem pointCount : cfg0.N = 50 := N_0

/-! ## The windows' schedule -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The output block is idle exactly in the first pass, -/
theorem outIdle : ∀ t : Fin cfg0.N, t.val < 25 → cfg0.idle 6 (grid0.coords t) = true :=
  (by decide +kernel : ∀ t : Fin grid0.N, t.val < 25 → cfg0.idle 6 (grid0.coords t) = true)
theorem outLive : ∀ t : Fin cfg0.N, 25 ≤ t.val → cfg0.idle 6 (grid0.coords t) = false :=
  (by decide +kernel : ∀ t : Fin grid0.N, 25 ≤ t.val → cfg0.idle 6 (grid0.coords t) = false)
/-- is written back exactly at the points of the second pass, -/
theorem outFlush : ∀ t : Fin cfg0.N, (cfg0.win 6).flush t = true ↔ 25 ≤ t.val :=
  (by decide +kernel : ∀ t : Fin grid0.N, win0_6.flush t = true ↔ 25 ≤ t.val)
/-- and point 25 + b writes back block b: rows 400·b …. -/
theorem outIndex : ∀ t : Fin cfg0.N, 25 ≤ t.val → (cfg0.win 6).index t = ![t.val - 25, 0] :=
  (by decide +kernel : ∀ t : Fin grid0.N, 25 ≤ t.val → win0_6.index t = ![t.val - 25, 0])

/-! ## The memrefs the body is called with -/

abbrev stg0 (t : Fin cfg0.N) : Memref sig .tc .vmem S10000x128 .f32 := win0_0.stage (cfg0.slots t 0)
abbrev stg0w (t : Fin cfg0.N) : (stg0 t).IsWhole := hstage0_0 ((cfg0.slots t 0).cast nbuf0_0)
abbrev stg1 (t : Fin cfg0.N) : Memref sig .tc .vmem S400x10000 .f32 := win0_1.stage (cfg0.slots t 1)
abbrev stg1w (t : Fin cfg0.N) : (stg1 t).IsWhole := hstage0_1 ((cfg0.slots t 1).cast nbuf0_1)
abbrev stg2 (t : Fin cfg0.N) : Memref sig .tc .vmem S128x128 .f32 := win0_2.stage (cfg0.slots t 2)
abbrev stg2w (t : Fin cfg0.N) : (stg2 t).IsWhole := hstage0_2 ((cfg0.slots t 2).cast nbuf0_2)
abbrev stg3 (t : Fin cfg0.N) : Memref sig .tc .vmem S1x128 .f32 := win0_3.stage (cfg0.slots t 3)
abbrev stg3w (t : Fin cfg0.N) : (stg3 t).IsWhole := hstage0_3 ((cfg0.slots t 3).cast nbuf0_3)
abbrev stg4 (t : Fin cfg0.N) : Memref sig .tc .vmem S128x128 .f32 := win0_4.stage (cfg0.slots t 4)
abbrev stg4w (t : Fin cfg0.N) : (stg4 t).IsWhole := hstage0_4 ((cfg0.slots t 4).cast nbuf0_4)
abbrev stg5 (t : Fin cfg0.N) : Memref sig .tc .vmem S1x128 .f32 := win0_5.stage (cfg0.slots t 5)
abbrev stg5w (t : Fin cfg0.N) : (stg5 t).IsWhole := hstage0_5 ((cfg0.slots t 5).cast nbuf0_5)
abbrev stg6 (t : Fin cfg0.N) : Memref sig .tc .vmem S400x128 .f32 := win0_6.stage (cfg0.slots t 6)
abbrev stg6w (t : Fin cfg0.N) : (stg6 t).IsWhole := hstage0_6 ((cfg0.slots t 6).cast nbuf0_6)

/-- The two scratch operands: the first holds x · W1, the second the slices of relu(adj · s1 + b1) · W2. -/
abbrev scr1 : Memref sig .tc .vmem S10000x128 .f32 := Memref.whole cc0_scratch0
abbrev scr2 : Memref sig .tc .vmem S10000x128 .f32 := Memref.whole cc0_scratch1

/-- What the region is entered with besides the windows: both scratch operands at some contents and the
    generator register at some state. -/
theorem entryInv (c : Dev nD) :
    (Pipeline.ΦA spec0 c : sProp 𝕄)
      = iprop(iprop((∃ d, owns (c : Thread nD τ) scr1 fullShare d) ∗ (∃ d, owns (c : Thread nD τ) scr2 fullShare d)) ∗ (∃ r, prngReg c r)) := by
  unfold Pipeline.ΦA; rw [scopedRest0_eq]; simp only [scr1, scr2, owns_whole]; try rfl

end Cert.KernelIdeal.Body

end
-- ==== Proof.IdealBody.SliceStep.lean ====
/-
  The body at a point of the first pass after the first one. Only the second guarded part runs: it reads the
  adjacency's row block, the first scratch whole, the bias row and W2, and stores relu(adj_j · s1 + b1) · W2 into
  the 400 rows of the second scratch that start where the point's number says. Everything else is handed back as
  it was found. What the second scratch holds afterwards is its contents before with that one store written over
  them; the store is found by running the body.
-/
import proofs.«128231_g79963701117591_cont_9to1c4b_293_3_alg».proof.Proof.IdealBody.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at such a point, on whole memrefs: inputs, output block and first scratch at named contents
    in and out; the second scratch at raw contents `f2` in, and out at `f2` with the run's stores written over it. -/
noncomputable def sliceStep (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) (s1 : Vec F S10000x128 .f32) (f2 : arg10.view.ty.Contents (Elt F)) :
    { L2 : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare s1 ∗ (arg10.view.loc (c : Thread nD τ) ↦[arg10.view.set]{fullShare} f2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare s1 ∗ (arg10.view.loc (c : Thread nD τ) ↦[arg10.view.set]{fullShare} arg10.view.writes (Elt F) f2 L2)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2', %hf2, H2⟩, ⟨%f3, %hf3, H3⟩, ⟨%f4, %hf4, H4⟩, ⟨%f5, %hf5, H5⟩, ⟨%f6, %hf6, H6⟩, ⟨%fs1, %hfs1, HS1⟩, HS2, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS1]
    · iexists _; isplitr; · ipureintro; exact harg9.read_unread _
      iexact HS1
    iexact HS2

end Cert.KernelIdeal.Body

end
-- ==== Proof.IdealBody.FirstPoint.lean ====
/-
  The body at the grid's first point. The first guarded part stores x · W1 over the whole first scratch; the
  second then reads it back and stores the first 400-row slice of the second scratch. Both scratches come in at
  anything and are handed back at some contents with the run's stores written over them.
-/
import proofs.«128231_g79963701117591_cont_9to1c4b_293_3_alg».proof.Proof.IdealBody.SliceStep

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at the first point: inputs and output block at named contents in and out; each scratch at
    anything in, and out at some contents with the run's stores (found by running the body) written over them. -/
noncomputable def firstPoint (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) :
    { L : List (View.Piece (Elt F) S10000x128 .f32) × List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L.1) ∗ (∃ f, arg10.view.loc (c : Thread nD τ) ↦[arg10.view.set]{fullShare} arg10.view.writes (Elt F) f L.2)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__gcn_body_eq_skeleton]; unfold cc0__gcn_body_skel
    unfold owns
    iintro ⟨⟨%f0, %hf0, H0⟩, ⟨%f1', %hf1, H1⟩, ⟨%f2', %hf2, H2⟩, ⟨%f3, %hf3, H3⟩, ⟨%f4, %hf4, H4⟩, ⟨%f5, %hf5, H5⟩, ⟨%f6, %hf6, H6⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS1]
    · iexists _; iexact HS1
    iexists _; iexact HS2

end Cert.KernelIdeal.Body

end
-- ==== Proof.IdealBody.OutputStep.lean ====
/-
  The body at a point of the second pass. Only the third guarded part runs: it reads the adjacency's row block,
  the second scratch whole and the second bias row, and stores adj_j · s2 + b2 over the whole output block. Both
  scratches are handed back as found.
-/
import proofs.«128231_g79963701117591_cont_9to1c4b_293_3_alg».proof.Proof.IdealBody.FirstPoint

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at such a point: inputs and the first scratch at named contents in and out; the second
    scratch at the raw contents that read `s2`, in and out; the output block at anything in, and out at some
    contents with the run's store written over them. -/
noncomputable def outputStep (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬atStart i) (hc1 : ¬inFirstPass i) (hc2 : inSecondPass i)
    (x0 : Vec F S10000x128 .f32) (x1 : Vec F S400x10000 .f32) (x2 : Vec F S128x128 .f32) (x3 : Vec F S1x128 .f32) (x4 : Vec F S128x128 .f32) (x5 : Vec F S1x128 .f32) (s1 : Vec F S10000x128 .f32) (s2 : Vec F S10000x128 .f32) :
    { L6 : List (View.Piece (Elt F) S400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s1 ∗ (arg10.view.loc (c : Thread nD τ) ↦[arg10.view.set]{fullShare} harg10.unread s2)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare s1 ∗ (arg10.view.loc (c : Thread nD τ) ↦[arg10.view.set]{fullShare} harg10.unread s2)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2', %hf2, H2⟩, ⟨%f3, %hf3, H3⟩, ⟨%f4, %hf4, H4⟩, ⟨%f5, %hf5, H5⟩, ⟨%d6, %f6, -, H6⟩, ⟨%fs1, %hfs1, HS1⟩, HS2, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HS1]
    · iexists _; isplitr; · ipureintro; exact harg9.read_unread _
      iexact HS1
    iexact HS2

end Cert.KernelIdeal.Body

end
-- ==== Proof.IdealBody.Stores.lean ====
/-
  What the body's stores are at each kind of point, over the inputs' named contents: at a first-pass point one
  slice relu(adj_j · s1 + b1) · W2 at the point's rows; at the first point also x · W1 over the whole first
  scratch (and the slice is computed from it); at a second-pass point adj_j · s2 + b2 over the whole output block.
  A load of a whole memref held at the raw contents that read X reads X.
-/
import proofs.«128231_g79963701117591_cont_9to1c4b_293_3_alg».proof.Proof.IdealBody.OutputStep
import Idealize.ShloMosaic.Lib.WholeRead

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → ℕ) = fun _ => 0 :=
  funext fun a => by match a with | ⟨0, _⟩ => rfl | ⟨1, _⟩ => rfl

/-- Loading all of a whole memref held at the contents that read `x` gives `x`. -/
theorem wholeLoad {S : Shape} {e : EltTy} (M : Memref sig .tc .vmem S e) (h : M.IsWhole) (x : S.Idx → Elt F e)
    {off : Fin S.rank → ℕ} (hz : off = fun _ => 0) (inb : ∀ a, off a + S.size a ≤ S.size a) :
    View.readAt (Elt F) M.view (Rect.unit off S.size inb).toLoadRect (h.unread x) = x := by
  rw [View.readAt_eq_ld, h.read_unread, View.ld_unit_zero hz]

/-- One store over the whole shape leaves its payload, whatever was there. -/
theorem read_whole_store {sig' : RefSig} {κ : Kind} {sp : Space} {S : Shape} {e : EltTy} (v : View sig' κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  subst hz; funext y
  exact View.read_writes_cons_unit_of_mem v f inb w [] y y rfl (fun a => (Nat.zero_add _).symm)

/-- At a later point of the first pass the body stores exactly the point's slice. -/
theorem sliceStep_stores (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) (s1 : Vec F S10000x128 .f32) (f2 : arg10.view.ty.Contents (Elt F)) :
    (sliceStep c i arg2 harg2 arg3 harg3 arg4 harg4 arg5 harg5 arg6 harg6 arg7 harg7 arg8 harg8 arg9 harg9 arg10 harg10 hc0 hc1 hc2 x0 x1 x2 x3 x4 x5 x6 s1 f2).1
      = [⟨Rect.unit (s := S10000x128) (k0_off1 i) S400x128.size (k0_off1_inb i hc1), k0_pay2 x1 s1 x3 x4⟩] := by
  unfold sliceStep
  dsimp only
  rw [wholeLoad arg3 harg3 x1 zeros2, wholeLoad arg9 harg9 s1 zeros2, wholeLoad arg5 harg5 x3 zeros2, wholeLoad arg6 harg6 x4 zeros2]

/-- At the first point the first scratch ends at x · W1, -/
theorem firstPoint_first (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) (f1 : arg9.view.ty.Contents (Elt F)) :
    arg9.view.read (Elt F) (arg9.view.writes (Elt F) f1 (firstPoint c i arg2 harg2 arg3 harg3 arg4 harg4 arg5 harg5 arg6 harg6 arg7 harg7 arg8 harg8 arg9 harg9 arg10 harg10 hc0 hc1 hc2 x0 x1 x2 x3 x4 x5 x6).1.1)
      = k0_pay1 x0 x2 := by
  unfold firstPoint
  dsimp only
  sl_unfold_run_names
  rw [wholeLoad arg2 harg2 x0 zeros2, wholeLoad arg4 harg4 x2 zeros2]
  exact read_whole_store arg9.view f1 zeros2 _ _

/-- and the second scratch gets the first slice, computed from x · W1. -/
theorem firstPoint_second (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : atStart i) (hc1 : inFirstPass i) (hc2 : ¬inSecondPass i)
    (x0 : Vec F S10000x128 .f32) (x1 : Vec F S400x10000 .f32) (x2 : Vec F S128x128 .f32) (x3 : Vec F S1x128 .f32) (x4 : Vec F S128x128 .f32) (x5 : Vec F S1x128 .f32) (x6 : Vec F S400x128 .f32) :
    (firstPoint c i arg2 harg2 arg3 harg3 arg4 harg4 arg5 harg5 arg6 harg6 arg7 harg7 arg8 harg8 arg9 harg9 arg10 harg10 hc0 hc1 hc2 x0 x1 x2 x3 x4 x5 x6).1.2
      = [⟨Rect.unit (s := S10000x128) (k0_off1 i) S400x128.size (k0_off1_inb i hc1), k0_pay2 x1 (k0_pay1 x0 x2) x3 x4⟩] := by
  unfold firstPoint
  dsimp only
  sl_unfold_run_names
  rw [wholeLoad arg3 harg3 x1 zeros2, wholeLoad arg2 harg2 x0 zeros2, wholeLoad arg4 harg4 x2 zeros2,
    wholeLoad arg5 harg5 x3 zeros2, wholeLoad arg6 harg6 x4 zeros2, View.readCov_unit_zero arg9.view zeros2]

/-- At a point of the second pass the output block ends at adj_j · s2 + b2, whatever it held. -/
theorem outputStep_block (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (arg10 : Memref sig .tc .vmem S10000x128 .f32) (harg10 : arg10.IsWhole) (hc0 : ¬atStart i) (hc1 : ¬inFirstPass i) (hc2 : inSecondPass i)
    (x0 : Vec F S10000x128 .f32) (x1 : Vec F S400x10000 .f32) (x2 : Vec F S128x128 .f32) (x3 : Vec F S1x128 .f32) (x4 : Vec F S128x128 .f32) (x5 : Vec F S1x128 .f32) (s1 : Vec F S10000x128 .f32) (s2 : Vec F S10000x128 .f32) (f6 : arg8.view.ty.Contents (Elt F)) :
    arg8.view.read (Elt F) (arg8.view.writes (Elt F) f6 (outputStep c i arg2 harg2 arg3 harg3 arg4 harg4 arg5 harg5 arg6 harg6 arg7 harg7 arg8 harg8 arg9 harg9 arg10 harg10 hc0 hc1 hc2 x0 x1 x2 x3 x4 x5 s1 s2).1)
      = k0_pay3 x1 s2 x5 := by
  unfold outputStep
  dsimp only
  rw [wholeLoad arg3 harg3 x1 zeros2, wholeLoad arg10 harg10 s2 zeros2, wholeLoad arg7 harg7 x5 zeros2]
  exact read_whole_store arg8.view f6 zeros2 _ _

end Cert.KernelIdeal.Body

end
-- ==== Proof.IdealBody.Carried.lean ====
/-
  What the two scratches hold from point to point. The first is x · W1 from the first point on. The second is
  filled 400 rows at a time: point t of the first pass stores relu(adj_t · s1 + b1) · W2 at rows 400·t …, so after
  point t rows below 400·(t + 1) hold their final values and the rows above still hold whatever the buffer held
  at entry. Row r's final value is entry (r mod 400) of the slice of point r div 400. After the first pass every
  row is final, and the second pass reads the scratch whole.
-/
import proofs.«128231_g79963701117591_cont_9to1c4b_293_3_alg».proof.Proof.IdealBody.Cases
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The grid's first point. -/
def firstPt : Fin cfg0.N := ⟨0, by rw [pointCount]; omega⟩

/-- x · W1: the inputs' blocks are the whole arrays, read at the first point. -/
def support1 (c : Dev nD) : Vec F S10000x128 .f32 := k0_pay1 (iblk m c 0 firstPt) (iblk m c 2 firstPt)

/-- The slice point `t` stores: relu(adj_t · s1 + b1) · W2, a 400 × 128 block. -/
def slicePay (c : Dev nD) (t : Fin cfg0.N) : Vec F S400x128 .f32 :=
  k0_pay2 (iblk m c 1 t) (support1 m c) (iblk m c 3 t) (iblk m c 4 t)

/-- The point whose slice holds row `y 0`: the row divided by 400. -/
def rowPoint (y : S10000x128.Idx) : Fin cfg0.N :=
  ⟨(y 0).val / 400, by have := ValueIdx.idx2_lt0 y; rw [pointCount]; omega⟩

/-- The position of `y` within that slice: the row modulo 400, the same column. -/
def rowLocal (y : S10000x128.Idx) : S400x128.Idx :=
  ValueIdx.ix2 ⟨(y 0).val % 400, Nat.mod_lt _ (by omega)⟩ ⟨(y 1).val, ValueIdx.idx2_lt1 y⟩

/-- The second scratch once every slice is stored. -/
def support2 (c : Dev nD) : Vec F S10000x128 .f32 := fun y => slicePay m c (rowPoint y) (rowLocal y)

/-- The output block point `t` of the second pass stores: adj_t · s2 + b2. -/
def outPay (c : Dev nD) (t : Fin cfg0.N) : Vec F S400x128 .f32 :=
  k0_pay3 (iblk m c 1 t) (support2 m c) (iblk m c 5 t)

/-- Contents `d` of the second scratch whose rows below 400·k are final. -/
def FilledBelow (c : Dev nD) (k : ℕ) (d : Vec F S10000x128 .f32) : Prop :=
  ∀ y : S10000x128.Idx, (y 0).val < 400 * k → d y = support2 m c y

theorem filledBelow_zero (c : Dev nD) (d : Vec F S10000x128 .f32) : FilledBelow m c 0 d :=
  fun y hy => absurd hy (by omega)

/-- All 25 slices stored: the scratch is `support2`. -/
theorem eq_support2_of_filled (c : Dev nD) (d : Vec F S10000x128 .f32) (h : FilledBelow m c 25 d) : d = support2 m c :=
  funext fun y => h y (by have := ValueIdx.idx2_lt0 y; omega)

theorem filledBelow_support2 (c : Dev nD) (k : ℕ) : FilledBelow m c k (support2 m c) := fun _ _ => rfl

/-- Storing point `t`'s slice at rows 400·t … over contents whose rows below 400·t are final leaves the rows
    below 400·(t + 1) final: a row of the slice reads the slice's payload at its position, a row above it reads
    what was there. -/
theorem filledBelow_step {sig' : RefSig} {κ : Kind} {sp : Space} (v : View sig' κ sp S10000x128 .f32) (f : v.ty.Contents (Elt F))
    (c : Dev nD) (t : Fin cfg0.N) (ht : t.val < 25)
    (inb : ∀ a, k0_off1 (grid0.coords t) a + S400x128.size a ≤ S10000x128.size a)
    (h : FilledBelow m c t.val (v.read (Elt F) f)) :
    FilledBelow m c (t.val + 1)
      (v.read (Elt F) (v.writes (Elt F) f [⟨Rect.unit (s := S10000x128) (k0_off1 (grid0.coords t)) S400x128.size inb, slicePay m c t⟩])) := by
  intro y hy
  by_cases hlo : 400 * t.val ≤ (y 0).val
  · have hp : rowPoint y = t := Fin.ext (by show (y 0).val / 400 = t.val; omega)
    rw [View.read_writes_cons_rows_of_mem v f inb (slicePay m c t) [] y (rowLocal y) (sliceStart t ht)
      (by show (y 0).val = 400 * t.val + (y 0).val % 400; omega) rfl]
    show slicePay m c t (rowLocal y) = slicePay m c (rowPoint y) (rowLocal y)
    rw [hp]
  · rw [View.read_writes_cons_rows_of_not_mem v f inb (slicePay m c t) [] y (sliceStart t ht) rfl (Or.inl (by omega))]
    exact h y (by omega)

end Cert.KernelIdeal.Body

end
-- ==== Proof.IdealBody.Obligation.lean ====
/-
  The pipeline's proof data for the fused kernel and the body's obligation at every point. The invariant between
  points says what the scratches hold: before the first point anything; afterwards the first scratch is x · W1 and
  the second has its rows below 400·min(n, 25) final. The inputs' buffers hold their blocks at every point. The
  output block is idle through the first pass (the body leaves it as found and it is not written back) and in the
  second pass holds adj_t · s2 + b2, which is written back to rows 400·(t − 25) ….
-/
import proofs.«128231_g79963701117591_cont_9to1c4b_293_3_alg».proof.Proof.IdealBody.Stores
import proofs.«128231_g79963701117591_cont_9to1c4b_293_3_alg».proof.Proof.IdealBody.Carried

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at entry the scratches hold anything; later the first holds x · W1 and the second some
    contents whose rows below 400·min(n, 25) are final. -/
def carriedInv (c : Dev nD) : ℕ → sProp 𝕄
  | 0 => Pipeline.ΦA spec0 c
  | n + 1 => iprop(iprop(owns (c : Thread nD τ) scr1 fullShare (support1 m c)
      ∗ (∃ f, ⌜FilledBelow m c (min (n + 1) 25) (scr2.view.read (Elt F) f)⌝ ∗ (scr2.view.loc (c : Thread nD τ) ↦[scr2.view.set]{fullShare} f)))
      ∗ (∃ r, prngReg c r))

theorem carriedInv_pos (c : Dev nD) (n : ℕ) (hn : n ≠ 0) :
    carriedInv m c n = iprop(iprop(owns (c : Thread nD τ) scr1 fullShare (support1 m c)
      ∗ (∃ f, ⌜FilledBelow m c (min n 25) (scr2.view.read (Elt F) f)⌝ ∗ (scr2.view.loc (c : Thread nD τ) ↦[scr2.view.set]{fullShare} f)))
      ∗ (∃ r, prngReg c r)) := by
  cases n with
  | zero => exact absurd rfl hn
  | succ n => rfl

theorem carriedInv_succ (c : Dev nD) (n : ℕ) :
    carriedInv m c (n + 1) = iprop(iprop(owns (c : Thread nD τ) scr1 fullShare (support1 m c)
      ∗ (∃ f, ⌜FilledBelow m c (min (n + 1) 25) (scr2.view.read (Elt F) f)⌝ ∗ (scr2.view.loc (c : Thread nD τ) ↦[scr2.view.set]{fullShare} f)))
      ∗ (∃ r, prngReg c r)) := rfl

/-! ## The proof data -/

/-- Core `c`'s proof data: the arrays as the region finds them; after the body each input's buffer at its block and
    the output's at adj_t · s2 + b2 (read only at the second pass's points: before them the window is idle). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outPay m c t
  Φ t := carriedInv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outPay m c t := by dsimp only [dats]

theorem found_0 (c : Dev nD) (t : Fin cfg0.N) (d) : (dats m 0 c).before 0 t d = iblk m c 0 t :=
  before0_0_of m (dats m 0 c) (A_eq m c 0) (after_0 m c) t d
theorem found_1 (c : Dev nD) (t : Fin cfg0.N) (d) : (dats m 0 c).before 1 t d = iblk m c 1 t :=
  before0_1_of m (dats m 0 c) (A_eq m c 1) (after_1 m c) t d
theorem found_2 (c : Dev nD) (t : Fin cfg0.N) (d) : (dats m 0 c).before 2 t d = iblk m c 2 t :=
  before0_2_of m (dats m 0 c) (A_eq m c 2) (after_2 m c) t d
theorem found_3 (c : Dev nD) (t : Fin cfg0.N) (d) : (dats m 0 c).before 3 t d = iblk m c 3 t :=
  before0_3_of m (dats m 0 c) (A_eq m c 3) (after_3 m c) t d
theorem found_4 (c : Dev nD) (t : Fin cfg0.N) (d) : (dats m 0 c).before 4 t d = iblk m c 4 t :=
  before0_4_of m (dats m 0 c) (A_eq m c 4) (after_4 m c) t d
theorem found_5 (c : Dev nD) (t : Fin cfg0.N) (d) : (dats m 0 c).before 5 t d = iblk m c 5 t :=
  before0_5_of m (dats m 0 c) (A_eq m c 5) (after_5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: by the point's number it is the first point, a later point of the first pass, or a point
    of the second pass; in each the matching triple applies, the scratches are taken from the invariant and given
    back with what the stores leave. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5]
  rw [show (dats m 0 c).owesAt () t.succ = (dats m 0 c).owesAt () t.castSucc from rfl]
  rw [show (dats m 0 c).Φ t.succ = carriedInv m c (t.val + 1) from rfl]
  rw [show (dats m 0 c).Φ t.castSucc = carriedInv m c t.val from rfl]
  rw [show (dats m 0 c).leavesExact 0 t = owns (c : Thread nD τ) (stg0 t) fullShare ((dats m 0 c).after 0 t) from by
    unfold Dat.leavesExact; rw [live0 t], after_0]
  rw [show (dats m 0 c).leavesExact 1 t = owns (c : Thread nD τ) (stg1 t) fullShare ((dats m 0 c).after 1 t) from by
    unfold Dat.leavesExact; rw [live1 t], after_1]
  rw [show (dats m 0 c).leavesExact 2 t = owns (c : Thread nD τ) (stg2 t) fullShare ((dats m 0 c).after 2 t) from by
    unfold Dat.leavesExact; rw [live2 t], after_2]
  rw [show (dats m 0 c).leavesExact 3 t = owns (c : Thread nD τ) (stg3 t) fullShare ((dats m 0 c).after 3 t) from by
    unfold Dat.leavesExact; rw [live3 t], after_3]
  rw [show (dats m 0 c).leavesExact 4 t = owns (c : Thread nD τ) (stg4 t) fullShare ((dats m 0 c).after 4 t) from by
    unfold Dat.leavesExact; rw [live4 t], after_4]
  rw [show (dats m 0 c).leavesExact 5 t = owns (c : Thread nD τ) (stg5 t) fullShare ((dats m 0 c).after 5 t) from by
    unfold Dat.leavesExact; rw [live5 t], after_5]
  have hN : t.val < 50 := lt_of_lt_of_eq t.isLt pointCount
  by_cases h1 : t.val < 25
  · have hfl : (cfg0.win 6).flush t = false := Bool.eq_false_iff.mpr fun h => by have := (outFlush t).mp h; omega
    rw [(dats m 0 c).leavesExact_idle 6 t (outIdle t h1) hfl]
    have hs2 : ¬inSecondPass (grid0.coords t) := fun h => by have := (inSecondPass_iff t).mp h; omega
    by_cases hz : t.val = 0
    · -- the first point: both scratches come in at anything
      have htf : t = firstPt := Fin.ext hz
      have hs1 : k0_pay1 (iblk m c 0 t) (iblk m c 2 t) = support1 m c := by rw [htf]; rfl
      rw [show carriedInv m c t.val = Pipeline.ΦA spec0 c from by rw [hz]; rfl, entryInv, carriedInv_succ,
        show min (t.val + 1) 25 = t.val + 1 from by omega]
      iintro ⟨⟨⟨HS1, HS2⟩, Hg⟩, Ho, ⟨%d0, H0⟩, ⟨%e1, H1⟩, ⟨%e2, H2⟩, ⟨%e3, H3⟩, ⟨%e4, H4⟩, ⟨%e5, H5⟩, ⟨%e6, H6⟩⟩
      iapply ((firstPoint c (grid0.coords t) _ _ _ _ _ _ _ _ _ _ _ _ _ _ _ (Memref.isWhole_whole _) _ (Memref.isWhole_whole _) ((atStart_iff t).mpr hz) ((inFirstPass_iff t).mpr h1) hs2
        (iblk m c 0 t) (iblk m c 1 t) (iblk m c 2 t) (iblk m c 3 t) (iblk m c 4 t) (iblk m c 5 t) ((dats m 0 c).before 6 t e6)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      iintro ⟨H0, H1, H2, H3, H4, H5, H6, ⟨%g1, HS1⟩, ⟨%g2, HS2⟩⟩
      isplitl [HS1 HS2 Hg]
      · isplitl [HS1 HS2]
        · isplitl [HS1]
          · unfold owns; iexists _; isplitr; swap; · iexact HS1
            ipureintro; rw [firstPoint_first]; exact hs1
          · iexists _; isplitr; swap; · iexact HS2
            ipureintro
            rw [firstPoint_second, hs1]
            exact filledBelow_step m _ g2 c t h1 _ (by rw [hz]; exact filledBelow_zero m c _)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a later point of the first pass: one more slice
      rw [carriedInv_pos m c t.val hz, carriedInv_succ]
      iintro ⟨⟨⟨HS1, ⟨%f2, %hf2, HS2⟩⟩, Hg⟩, Ho, ⟨%d0, H0⟩, ⟨%e1, H1⟩, ⟨%e2, H2⟩, ⟨%e3, H3⟩, ⟨%e4, H4⟩, ⟨%e5, H5⟩, ⟨%e6, H6⟩⟩
      iapply ((sliceStep c (grid0.coords t) _ _ _ _ _ _ _ _ _ _ _ _ _ _ _ (Memref.isWhole_whole _) _ (Memref.isWhole_whole _) (fun h => hz ((atStart_iff t).mp h)) ((inFirstPass_iff t).mpr h1) hs2
        (iblk m c 0 t) (iblk m c 1 t) (iblk m c 2 t) (iblk m c 3 t) (iblk m c 4 t) (iblk m c 5 t) ((dats m 0 c).before 6 t e6) (support1 m c) f2).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS1]; · iexact HS1
      isplitl [HS2]; · iexact HS2
      iintro ⟨H0, H1, H2, H3, H4, H5, H6, HS1, HS2⟩
      isplitl [HS1 HS2 Hg]
      · isplitl [HS1 HS2]
        · isplitl [HS1]
          · iexact HS1
          · iexists _; isplitr; swap; · iexact HS2
            ipureintro
            rw [sliceStep_stores, show min (t.val + 1) 25 = t.val + 1 from by omega]
            exact filledBelow_step m _ f2 c t h1 _ (by rw [show min t.val 25 = t.val from by omega] at hf2; exact hf2)
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · -- the second pass: the second scratch is final, the output block is stored whole
    have h2 : 25 ≤ t.val := by omega
    have hz : t.val ≠ 0 := by omega
    rw [show (dats m 0 c).leavesExact 6 t = owns (c : Thread nD τ) (stg6 t) fullShare ((dats m 0 c).after 6 t) from by
      unfold Dat.leavesExact; rw [outLive t h2], after_6]
    rw [carriedInv_pos m c t.val hz, carriedInv_succ]
    rw [show min t.val 25 = 25 from by omega, show min (t.val + 1) 25 = 25 from by omega]
    iintro ⟨⟨⟨HS1, ⟨%f2, %hf2, HS2⟩⟩, Hg⟩, Ho, ⟨%d0, H0⟩, ⟨%e1, H1⟩, ⟨%e2, H2⟩, ⟨%e3, H3⟩, ⟨%e4, H4⟩, ⟨%e5, H5⟩, ⟨%e6, H6⟩⟩
    obtain rfl := (Memref.isWhole_whole cc0_scratch1).eq_unread (eq_support2_of_filled m c _ hf2)
    iapply ((outputStep c (grid0.coords t) _ _ _ _ _ _ _ _ _ _ _ _ _ _ _ (Memref.isWhole_whole _) _ (Memref.isWhole_whole _) (fun h => hz ((atStart_iff t).mp h)) (fun h => h1 ((inFirstPass_iff t).mp h)) ((inSecondPass_iff t).mpr h2)
      (iblk m c 0 t) (iblk m c 1 t) (iblk m c 2 t) (iblk m c 3 t) (iblk m c 4 t) (iblk m c 5 t) (support1 m c) (support2 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS1]; · iexact HS1
    isplitl [HS2]; · iexact HS2
    iintro ⟨H0, H1, H2, H3, H4, H5, ⟨%g6, H6⟩, HS1, HS2⟩
    isplitl [HS1 HS2 Hg]
    · isplitl [HS1 HS2]
      · isplitl [HS1]
        · iexact HS1
        · iexists _; isplitr; swap; · iexact HS2
          ipureintro; rw [Memref.IsWhole.read_unread]; exact filledBelow_support2 m c 25
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro; rw [outputStep_block]; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entry and exit -/

theorem inv_entry (c : Dev nD) : Pipeline.ΦA spec0 c ⊢ (dats m 0 c).Φ 0 :=
  Idealize.SL.BI.Entails.refl _

/-- After the last point the scratches' contents are forgotten. -/
theorem inv_exit (c : Dev nD) : (dats m 0 c).Φ (Fin.last cfg0.N) ⊢ Pipeline.ΦA spec0 c := by
  rw [show (dats m 0 c).Φ (Fin.last cfg0.N) = carriedInv m c cfg0.N from rfl,
    carriedInv_pos m c cfg0.N (by rw [pointCount]; omega), entryInv]
  iintro ⟨⟨HS1, ⟨%f2, -, HS2⟩⟩, Hg⟩
  isplitl [HS1 HS2]
  · isplitl [HS1]
    · iexists _; iexact HS1
    · iexists _; unfold owns; iexists f2; isplitr; swap; · iexact HS2
      ipureintro; rfl
  iexact Hg

/-! ## The run -/

/-- Every weakly fair execution of @main terminates; at the end every windowed array holds what the library
    computes from the proof data and every other unscoped buffer its entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c) (hshare := fun c w => by unfold Dat.share; split <;> rfl)
    (howed := fun _ _ => rfl) (V := V m) (hmain := hmain m Variants.none) (hA := A_eq m) (hin := inv_entry m) (hout := inv_exit m)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.IdealBody.Blocks.lean ====
/-
  Which entries of the arguments each window's block holds. The feature matrix, both weight matrices and both
  bias rows are single blocks: every point sees the whole array. The adjacency matrix is cut into 25 blocks of
  400 rows; points t and t + 25 both see block t mod 25, so entry (p, l) of the block is entry
  (400·(t mod 25) + p, l) of the matrix. The bias rows reach the region as 1 × 128 arrays, the 128-vectors given a
  leading unit axis by the host.
-/
import proofs.«128231_g79963701117591_cont_9to1c4b_293_3_alg».proof.Proof.IdealBody.Cases
import Idealize.ShloMosaic.Lib.ValueIdx
import Idealize.ShloMosaic.Lib.ValueLayout
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The printed index maps over the grid: the single-block windows stay at block (0, 0); the adjacency's block
    row is the point's number modulo 25. -/
theorem blockIndex : ∀ t : Fin cfg0.N,
    win0_0.index t (0 : Fin 2) = 0 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The feature matrix's block is the matrix. -/
theorem block_x (c : Dev nD) (t : Fin cfg0.N) : iblk m c 0 t = V m c main_arg0 := by
  obtain ⟨e0, e1, -⟩ := blockIndex t
  funext j
  show V m c main_arg0 (((cfg0.win 0).blk t).view.emb j) = V m c main_arg0 j
  refine congrArg _ (funext fun a => Fin.ext ?_)
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- W1's block is W1. -/
theorem block_w1 (c : Dev nD) (t : Fin cfg0.N) : iblk m c 2 t = V m c main_arg2 := by
  obtain ⟨-, -, -, -, e0, e1, -⟩ := blockIndex t
  funext j
  show V m c main_arg2 (((cfg0.win 2).blk t).view.emb j) = V m c main_arg2 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- W2's block is W2. -/
theorem block_w2 (c : Dev nD) (t : Fin cfg0.N) : iblk m c 4 t = V m c main_arg4 := by
  obtain ⟨-, -, -, -, -, -, -, -, e0, e1, -⟩ := blockIndex t
  funext j
  show V m c main_arg4 (((cfg0.win 4).blk t).view.emb j) = V m c main_arg4 j
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- The first bias row's block is the 1 × 128 array the host made of b1. -/
theorem block_b1 (c : Dev nD) (t : Fin cfg0.N) : iblk m c 3 t = V m c main_v0 := by
  obtain ⟨-, -, -, -, -, -, e0, e1, -⟩ := blockIndex t
  funext j
  show V m c main_v0 (((cfg0.win 3).blk t).view.emb j) = V m c main_v0 j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- The second bias row's block is the 1 × 128 array the host made of b2. -/
theorem block_b2 (c : Dev nD) (t : Fin cfg0.N) : iblk m c 5 t = V m c main_v1 := by
  obtain ⟨-, -, -, -, -, -, -, -, -, -, e0, e1⟩ := blockIndex t
  funext j
  show V m c main_v1 (((cfg0.win 5).blk t).view.emb j) = V m c main_v1 j
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- Entry (p, l) of the adjacency's block at point `t` is entry (400·(t mod 25) + p, l) of the matrix. -/
theorem block_adj (c : Dev nD) (t : Fin cfg0.N) (p : Fin 400) (l : Fin 10000) :
    iblk m c 1 t (ix2 p l) = V m c main_arg1 (ix2 ⟨400 * (t.val % 25) + p.val, by omega⟩ l) := by
  obtain ⟨-, -, e0, e1, -⟩ := blockIndex t
  show V m c main_arg1 (((cfg0.win 1).blk t).view.emb (ix2 p l)) = V m c main_arg1 _
  refine congrArg _ (funext fun a => Fin.ext ?_)
  match a with
  | ⟨0, _⟩ => show win0_1.index t (0 : Fin 2) * 400 + 1 * p.val = 400 * (t.val % 25) + p.val; omega
  | ⟨1, _⟩ => show win0_1.index t (1 : Fin 2) * 10000 + 1 * l.val = l.val; omega

/-- The host's two reshapes before the region: each bias vector with a leading unit axis. -/
theorem hostRow_b1 (c : Dev nD) :
    (V m c main_v0 : S1x128.Idx → Elt F .f32) = shapeCast S1x128 (m ((c : Thread nD τ).loc main_arg3)) shapeCasts_S128_S1x128 := by
  dsimp only [V, hostOps0]; after_results; rfl

theorem hostRow_b2 (c : Dev nD) :
    (V m c main_v1 : S1x128.Idx → Elt F .f32) = shapeCast S1x128 (m ((c : Thread nD τ).loc main_arg5)) shapeCasts_S128_S1x128 := by
  dsimp only [V, hostOps0]; after_results; rfl

end Cert.KernelIdeal.Body

end
-- ==== Proof.Value.Spec.lean ====
/-
  The two-layer graph convolution, entry by entry over the extended reals.

  With X the N × 128 feature matrix, A the N × N adjacency matrix, W1 and W2 the 128 × 128 weights and b1, b2 the
  bias vectors (N = 10000):
    s1(r, k)  = Σ_j X(r, j) · W1(j, k)
    h(r, k)   = max (Σ_l A(r, l) · s1(l, k) + b1(k)) z          (z the float zero)
    s2(r, q)  = Σ_k h(r, k) · W2(k, q)
    out(r, q) = Σ_l A(r, l) · s2(l, q) + b2(q).
  Row r of each stage depends on A only through its row r: that is why computing the stages 400 rows at a time,
  in two passes over A's row blocks, gives the same entries as computing them on all rows at once. No law of
  arithmetic is needed to compare the two: the sums are the same sums.
-/
import Idealize.ShloMosaic.PureOps.Ideal
import Idealize.ShloMosaic.Lib.ValueIdx

noncomputable section

namespace Cert.GraphConv

open Idealize.ShloMosaic Idealize.ShloMosaic.ValueIdx

variable (X : (⟨2, ![10000, 128]⟩ : Shape).Idx → EReal) (A : (⟨2, ![10000, 10000]⟩ : Shape).Idx → EReal)
  (W1 : (⟨2, ![128, 128]⟩ : Shape).Idx → EReal) (b1 : (⟨1, ![128]⟩ : Shape).Idx → EReal)
  (W2 : (⟨2, ![128, 128]⟩ : Shape).Idx → EReal) (b2 : (⟨1, ![128]⟩ : Shape).Idx → EReal) (z : EReal)

/-- x · W1 at (r, k). -/
def s1 (r : Fin 10000) (k : Fin 128) : EReal := ∑ j : Fin 128, X (ix2 r j) * W1 (ix2 j k)

/-- The hidden layer relu(A · s1 + b1) at (r, k). -/
def hid (r : Fin 10000) (k : Fin 128) : EReal :=
  max ((∑ l : Fin 10000, A (ix2 r l) * s1 X W1 l k) + b1 (ix1 k)) z

/-- hid · W2 at (r, q). -/
def s2 (r : Fin 10000) (q : Fin 128) : EReal := ∑ k : Fin 128, hid X A W1 b1 z r k * W2 (ix2 k q)

/-- The result A · s2 + b2 at (r, q). -/
def out (r : Fin 10000) (q : Fin 128) : EReal :=
  (∑ l : Fin 10000, A (ix2 r l) * s2 X A W1 b1 W2 z l q) + b2 (ix1 q)

end Cert.GraphConv

end
-- ==== Proof.LibPlainDot.lean ====
/-
  A plain matrix product read one entry at a time, over the extended reals.

  For an M×K array l and a K×N array r, the product's entry (p, q) is the sum over k of l(p, k) * r(k, q). This holds
  of the accelerator's matrix unit started from a zero accumulator and of the host's general dot product alike: both
  are exact sums at the ideal values, and a sum over the one contracted axis is re-indexed by that axis's coordinate.
  Adding a bias row b(q) to every row gives the linear layer's entry, `linRow`: it depends on the left operand only
  through its row p. That is the whole reason a product computed on blocks of rows agrees with the product computed
  on all rows at once.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibPlainDot

open Idealize.ShloMosaic Idealize.ShloMosaic.ValueIdx

/-- The plain product contracts one axis … -/
theorem plain_rank (M K N : ℕ) : (DotDims.plain M K N).contr.rank = 1 := rfl

/-- … of extent K. -/
theorem plain_size (M K N : ℕ) : (DotDims.plain M K N).contr.size ⟨0, by rw [plain_rank]; exact Nat.one_pos⟩ = K := rfl

/-- The contraction positions of a plain product are the K coordinates of the contracted axis. -/
abbrev plainEquiv (M K N : ℕ) : (DotDims.plain M K N).contr.Idx ≃ Fin K :=
  contrEquiv1 (DotDims.plain M K N) K (plain_rank M K N) (plain_size M K N)

/-- At output entry (p, q) and contraction coordinate k the left operand is read at (p, k). -/
theorem plain_lhsIdx (M K N : ℕ) (p : Fin M) (q : Fin N) (k : Fin K) :
    (DotDims.plain M K N).lhsIdx (ix2 p q) ((plainEquiv M K N).symm k) = ix2 p k := by
  funext a
  match a with
  | ⟨0, _⟩ => exact Fin.ext rfl
  | ⟨1, _⟩ =>
    exact Fin.ext ((DotDims.lhsIdx_val_of_single (DotDims.plain M K N) (cl := 1) rfl _ _).trans (contrEquiv1_symm_val _ _ _ _ k))

/-- At output entry (p, q) and contraction coordinate k the right operand is read at (k, q). -/
theorem plain_rhsIdx (M K N : ℕ) (p : Fin M) (q : Fin N) (k : Fin K) :
    (DotDims.plain M K N).rhsIdx (ix2 p q) ((plainEquiv M K N).symm k) = ix2 k q := by
  funext a
  match a with
  | ⟨1, _⟩ => exact Fin.ext rfl
  | ⟨0, _⟩ =>
    exact Fin.ext ((DotDims.rhsIdx_val_of_single (DotDims.plain M K N) (cr := 0) rfl _ _).trans (contrEquiv1_symm_val _ _ _ _ k))

/-- The product's sum over contraction positions is the sum over k of l(p, k) * r(k, q). -/
theorem plain_sum (M K N : ℕ) (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (plainEquiv M K N).symm]
  exact Finset.sum_congr rfl fun k _ => by rw [plain_lhsIdx, plain_rhsIdx]

/-- The matrix unit from a zero accumulator, at entry (p, q). -/
theorem plain_matmul {φ₁ φ₂ : FTy} (M K N : ℕ) (l : FVec Ideal ⟨2, ![M, K]⟩ φ₁) (r : FVec Ideal ⟨2, ![K, N]⟩ φ₂) (p : Fin M) (q : Fin N) :
    FloatOps.matmul (DotDims.plain M K N) none l r (constant _ .f32 0x00000000#32) (ix2 p q) = ∑ k : Fin K, l (ix2 p k) * r (ix2 k q) := by
  rw [Ideal.matmul_constant_zero_apply]; exact plain_sum M K N l r p q

/-- The host's general dot product, at entry (p, q). -/
theorem plain_dotGeneral {φ₁ φ₂ : FTy} (M K N : ℕ) (sched : HostSchedule) (l : FVec Ideal ⟨2, ![M, K]⟩ φ₁) (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply]; exact plain_sum M K N l r p q

/-- One entry of a linear layer: the row x times column c of w, plus the bias at c. -/
def linRow {K C : ℕ} (x : Fin K → EReal) (w : (⟨2, ![K, C]⟩ : Shape).Idx → EReal) (b : (⟨1, ![C]⟩ : Shape).Idx → EReal) (c : Fin C) : EReal :=
  (∑ k : Fin K, x k * w (ix2 k c)) + b (ix1 c)

/-- A bias vector given a leading unit axis and repeated down the rows reads b(q) at (p, q). -/
theorem biasRows_apply {α : Type} {M N : ℕ} (b : (⟨1, ![N]⟩ : Shape).Idx → α) (h : (⟨1, ![N]⟩ : Shape).ShapeCasts ⟨2, ![1, N]⟩)
    (h' : (⟨2, ![1, N]⟩ : Shape).Broadcasts ⟨2, ![M, N]⟩) (p : Fin M) (q : Fin N) :
    broadcastTo ⟨2, ![M, N]⟩ (shapeCast ⟨2, ![1, N]⟩ b h) h' (ix2 p q) = b (ix1 q) := by
  rw [broadcastTo_1b_ab_apply, shapeCast_a_1a_apply]

/-- The host's spelling of the same: the vector laid along axis 1 of a one-row array, that row laid along both axes. -/
theorem biasRowsInDim_apply {α : Type} {M N : ℕ} (b : (⟨1, ![N]⟩ : Shape).Idx → α)
    (h : (⟨1, ![N]⟩ : Shape).BroadcastsInDim ⟨2, ![1, N]⟩ ![1]) (h' : (⟨2, ![1, N]⟩ : Shape).BroadcastsInDim ⟨2, ![M, N]⟩ ![0, 1])
    (p : Fin M) (q : Fin N) :
    broadcastInDim ⟨2, ![M, N]⟩ ![0, 1] h' (broadcastInDim ⟨2, ![1, N]⟩ ![1] h b) (ix2 p q) = b (ix1 q) := by
  rw [broadcastInDim_apply ![0, 1] h' _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply ![1] h b (ix2 (0 : Fin 1) q) (ix1 q) (fun a => by
        match a with
        | ⟨0, _⟩ =>
          show q.val = if N = 1 then 0 else q.val
          split
          · have := q.isLt; omega
          · rfl)]

/-- THE KERNEL'S LINEAR LAYER at entry (p, q): the matrix unit from zero plus the bias rows is the row's `linRow`. -/
theorem matmul_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).ShapeCasts ⟨2, ![1, N]⟩) (h' : (⟨2, ![1, N]⟩ : Shape).Broadcasts ⟨2, ![M, N]⟩) (p : Fin M) (q : Fin N) :
    addf (matmul d none l r (constant ⟨2, ![M, N]⟩ .f32 0x00000000#32)) (broadcastTo ⟨2, ![M, N]⟩ (shapeCast ⟨2, ![1, N]⟩ b h) h') (ix2 p q)
      = linRow (fun k => l (ix2 p k)) r b q := by
  subst hd
  rw [addf_apply, biasRows_apply]
  exact congrArg (· + b (ix1 q)) (plain_matmul M K N l r p q)

/-- THE HOST'S LINEAR LAYER at entry (p, q): the general dot product plus the bias rows is the same `linRow`. -/
theorem dot_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1]) (p : Fin M) (q : Fin N) :
    addf (Host.dotGeneral d none l r) (broadcastInDim ⟨2, ![M, N]⟩ ![0, 1] h' (broadcastInDim ⟨2, ![1, N]⟩ ![1] h b)) (ix2 p q)
      = linRow (fun k => l (ix2 p k)) r b q := by
  subst hd
  rw [addf_apply, biasRowsInDim_apply]
  exact congrArg (· + b (ix1 q)) (plain_dotGeneral M K N _ l r p q)

/-- Two rows that agree entry by entry, through weights and biases that agree, give the same layer entry. -/
theorem linRow_congr {K C : ℕ} {x x' : Fin K → EReal} {w w' : (⟨2, ![K, C]⟩ : Shape).Idx → EReal} {b b' : (⟨1, ![C]⟩ : Shape).Idx → EReal}
    (hx : ∀ k, x k = x' k) (hw : w = w') (hb : b = b') (c : Fin C) : linRow x w b c = linRow x' w' b' c := by
  subst hw; subst hb
  exact congrArg (· + b (ix1 c)) (Finset.sum_congr rfl fun k _ => by rw [hx k])

end Cert.LibPlainDot

end
-- ==== Proof.Value.Kernel.lean ====
/-
  The kernel's result at the ideal instance. Each stored block is a matrix product from a zero accumulator, plus a
  bias row, maybe clamped below at zero: at entry (p, q) a plain sum over the contracted axis. The first scratch is
  therefore x · W1, row by row; point t's slice of the second scratch is rows 400·t … of hid · W2, because entry
  (p, l) of the adjacency's block is entry (400·t + p, l) of A; the whole second scratch is hid · W2; and the block
  point 25 + b writes back is rows 400·b … of A · s2 + b2. The 25 blocks tile the result array.
-/
import proofs.«128231_g79963701117591_cont_9to1c4b_293_3_alg».proof.Proof.IdealBody.Obligation
import proofs.«128231_g79963701117591_cont_9to1c4b_293_3_alg».proof.Proof.IdealBody.Blocks
import proofs.«128231_g79963701117591_cont_9to1c4b_293_3_alg».proof.Proof.Value.Spec
import proofs.«128231_g79963701117591_cont_9to1c4b_293_3_alg».proof.Proof.LibPlainDot

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.LibPlainDot Cert.GraphConv

/-- The float zero, as an extended real. -/
abbrev fzero : EReal := FloatOps.ofBits (F := Ideal) .f32 0x00000000#32

/-! ## The three payloads at an entry -/

theorem pay1_apply (x : Vec Ideal S10000x128 .f32) (w : Vec Ideal S128x128 .f32) (r : Fin 10000) (k : Fin 128) :
    k0_pay1 x w (ix2 r k) = ∑ j : Fin 128, x (ix2 r j) * w (ix2 j k) := by
  unfold k0_pay1
  rw [shapeCast_self]
  exact plain_matmul 10000 128 128 x w r k

theorem pay2_apply (a : Vec Ideal S400x10000 .f32) (s : Vec Ideal S10000x128 .f32) (b : Vec Ideal S1x128 .f32) (w : Vec Ideal S128x128 .f32)
    (p : Fin 400) (q : Fin 128) :
    k0_pay2 a s b w (ix2 p q)
      = ∑ k : Fin 128, max ((∑ l : Fin 10000, a (ix2 p l) * s (ix2 l k)) + b (ix2 (0 : Fin 1) k)) fzero * w (ix2 k q) := by
  unfold k0_pay2
  rw [shapeCast_self]
  refine (plain_matmul 400 128 128 _ w p q).trans (Finset.sum_congr rfl fun k _ => ?_)
  rw [maximumf_apply, addf_apply, broadcast_apply, broadcastTo_1b_ab_apply, shapeCast_self]
  exact congrArg (fun u => max (u + b (ix2 (0 : Fin 1) k)) fzero * w (ix2 k q)) (plain_matmul 400 10000 128 a s p k)

theorem pay3_apply (a : Vec Ideal S400x10000 .f32) (s : Vec Ideal S10000x128 .f32) (b : Vec Ideal S1x128 .f32) (p : Fin 400) (q : Fin 128) :
    k0_pay3 a s b (ix2 p q) = (∑ l : Fin 10000, a (ix2 p l) * s (ix2 l q)) + b (ix2 (0 : Fin 1) q) := by
  unfold k0_pay3
  rw [addf_apply, broadcastTo_1b_ab_apply, shapeCast_self]
  exact congrArg (· + b (ix2 (0 : Fin 1) q)) (plain_matmul 400 10000 128 a s p q)

/-! ## The arguments -/

variable (m : (ℓ : Loc nD τ sig) → Buf (Elt Ideal) ℓ) (ρ : Dev nD → PrngReg)

abbrev argX (c : Dev nD) : S10000x128.Idx → EReal := m ((c : Thread nD τ).loc main_arg0)
abbrev argA (c : Dev nD) : S10000x10000.Idx → EReal := m ((c : Thread nD τ).loc main_arg1)
abbrev argW1 (c : Dev nD) : S128x128.Idx → EReal := m ((c : Thread nD τ).loc main_arg2)
abbrev argB1 (c : Dev nD) : S128.Idx → EReal := m ((c : Thread nD τ).loc main_arg3)
abbrev argW2 (c : Dev nD) : S128x128.Idx → EReal := m ((c : Thread nD τ).loc main_arg4)
abbrev argB2 (c : Dev nD) : S128.Idx → EReal := m ((c : Thread nD τ).loc main_arg5)

/-- The specification's result at the kernel's arguments. -/
abbrev specOut (c : Dev nD) (r : Fin 10000) (q : Fin 128) : EReal :=
  out (argX m c) (argA m c) (argW1 m c) (argB1 m c) (argW2 m c) (argB2 m c) fzero r q

abbrev specS2 (c : Dev nD) (r : Fin 10000) (q : Fin 128) : EReal :=
  s2 (argX m c) (argA m c) (argW1 m c) (argB1 m c) (argW2 m c) fzero r q

/-! ## The scratches and the output block -/

/-- The first scratch is x · W1. -/
theorem support1_apply (c : Dev nD) (r : Fin 10000) (k : Fin 128) :
    support1 m c (ix2 r k) = s1 (argX m c) (argW1 m c) r k := by
  unfold support1
  refine (pay1_apply _ _ r k).trans ?_
  rw [block_x, block_w1, V_main_arg0, V_main_arg2]
  rfl

theorem biasRow1 (c : Dev nD) (t : Fin cfg0.N) (k : Fin 128) : iblk m c 3 t (ix2 (0 : Fin 1) k) = argB1 m c (ix1 k) := by
  rw [block_b1, hostRow_b1]
  exact shapeCast_a_1a_apply _ _ 0 k

theorem biasRow2 (c : Dev nD) (t : Fin cfg0.N) (k : Fin 128) : iblk m c 5 t (ix2 (0 : Fin 1) k) = argB2 m c (ix1 k) := by
  rw [block_b2, hostRow_b2]
  exact shapeCast_a_1a_apply _ _ 0 k

theorem adjRow (c : Dev nD) (t : Fin cfg0.N) (p : Fin 400) (l : Fin 10000) :
    iblk m c 1 t (ix2 p l) = argA m c (ix2 ⟨400 * (t.val % 25) + p.val, by omega⟩ l) :=
  (block_adj m c t p l).trans (congrFun (V_main_arg1 m c) _)

/-- Point `t`'s slice is rows 400·(t mod 25) … of hid · W2. -/
theorem slicePay_apply (c : Dev nD) (t : Fin cfg0.N) (p : Fin 400) (q : Fin 128) :
    slicePay m c t (ix2 p q) = specS2 m c ⟨400 * (t.val % 25) + p.val, by omega⟩ q := by
  unfold slicePay
  refine (pay2_apply _ _ _ _ p q).trans ?_
  unfold specS2 s2 hid
  refine Finset.sum_congr rfl fun k _ => ?_
  rw [biasRow1, show iblk m c 4 t = argW2 m c from (block_w2 m c t).trans (V_main_arg4 m c)]
  congr 3
  exact Finset.sum_congr rfl fun l _ => by rw [adjRow, support1_apply]

/-- The second scratch, all slices stored, is hid · W2. -/
theorem support2_apply (c : Dev nD) (r : Fin 10000) (q : Fin 128) : support2 m c (ix2 r q) = specS2 m c r q := by
  show slicePay m c (rowPoint (ix2 r q)) (rowLocal (ix2 r q)) = _
  refine (slicePay_apply m c (rowPoint (ix2 r q)) ⟨r.val % 400, Nat.mod_lt _ (by omega)⟩ q).trans ?_
  have hr : (⟨400 * ((rowPoint (ix2 r q : S10000x128.Idx)).val % 25) + r.val % 400, by have := r.isLt; show 400 * (r.val / 400 % 25) + r.val % 400 < 10000; omega⟩ : Fin 10000) = r :=
    Fin.ext (by show 400 * (r.val / 400 % 25) + r.val % 400 = r.val; have := r.isLt; omega)
  exact congrArg (fun r' => specS2 m c r' q) hr

/-- The output block of point `t` is rows 400·(t mod 25) … of A · s2 + b2. -/
theorem outPay_apply (c : Dev nD) (t : Fin cfg0.N) (p : Fin 400) (q : Fin 128) :
    outPay m c t (ix2 p q) = specOut m c ⟨400 * (t.val % 25) + p.val, by omega⟩ q := by
  unfold outPay
  refine (pay3_apply _ _ _ p q).trans ?_
  unfold specOut out
  rw [biasRow2]
  congr 1
  exact Finset.sum_congr rfl fun l _ => by rw [adjRow, support2_apply]

/-! ## From blocks to the array -/

/-- Point 25 + b writes back block b. -/
theorem outBlockRow : ∀ t : Fin cfg0.N, 25 ≤ t.val → win0_6.index t (0 : Fin 2) = t.val - 25 ∧ win0_6.index t (1 : Fin 2) = 0 :=
  (by decide +kernel : ∀ t : Fin grid0.N, 25 ≤ t.val → win0_6.index t (0 : Fin 2) = t.val - 25 ∧ win0_6.index t (1 : Fin 2) = 0)

/-- The result array: the specification's result at every entry. -/
def resultArr (c : Dev nD) : S10000x128.Idx → EReal := fun i => specOut m c (i 0) (i 1)

/-- What a point of the second pass writes back is its block of the result array. -/
theorem flushed_eq (c : Dev nD) (t : Fin cfg0.N) (hf : (cfg0.win 6).flush t = true) :
    (dats m 0 c).flushed 6 t = ((cfg0.win 6).blk t).view.read (Elt Ideal) (resultArr m c) := by
  have h25 : 25 ≤ t.val := (outFlush t).mp hf
  have hN : t.val < 50 := lt_of_lt_of_eq t.isLt pointCount
  obtain ⟨e0, e1⟩ := outBlockRow t h25
  show (cfg0.win 6).cut (grid0.coords t) ((dats m 0 c).after 6 t) = _
  rw [after_6]
  funext j
  obtain ⟨p, q, rfl⟩ : ∃ (p : Fin 400) (q : Fin 128), j = ix2 p q := ⟨j 0, j 1, eq_ix2 j⟩
  show outPay m c t (ix2 p q) = resultArr m c (((cfg0.win 6).blk t).view.emb (ix2 p q))
  rw [outPay_apply]
  unfold resultArr
  congr 1
  · exact Fin.ext (by show 400 * (t.val % 25) + p.val = win0_6.index t (0 : Fin 2) * 400 + 1 * p.val; omega)
  · exact Fin.ext (by show q.val = win0_6.index t (1 : Fin 2) * 128 + 1 * q.val; omega)

/-- Every entry of the result array lies in the block of the point 25 + (row div 400). -/
theorem covered (c : Dev nD) (i : S10000x128.Idx) :
    ∃ t : Fin cfg0.N, (cfg0.win 6).flush t = true ∧ i ∈ ((cfg0.win 6).blk t).view.set := by
  have hi0 : (i 0).val < 10000 := idx2_lt0 i
  have hi1 : (i 1).val < 128 := idx2_lt1 i
  let t : Fin cfg0.N := ⟨25 + (i 0).val / 400, by rw [pointCount]; omega⟩
  have h25 : 25 ≤ t.val := Nat.le_add_right _ _
  obtain ⟨e0, e1⟩ := outBlockRow t h25
  have ht : t.val = 25 + (i 0).val / 400 := rfl
  refine ⟨t, (outFlush t).mpr h25, ?_⟩
  show i ∈ ((View.whole main_v2).slice (win0_6.rect t)).set
  rw [View.set_slice_whole, Rect.mem_set_unit]
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-- After the run the result array holds the specification's result. -/
theorem final (c : Dev nD) : (dats m 0 c).arrAt 6 cfg0.N = resultArr m c :=
  (dats m 0 c).arrAt_eq_of_cover 6 (resultArr m c) (fun t hf => flushed_eq m c t hf) (covered c)

/-- The kernel's run: the result at the specification's, the arguments unchanged. -/
theorem value_run : θ_run defs (onTc (τ := τ) (main (F := Ideal))) ⟨m, fun _ => 0, ρ⟩ (fun r => ∀ c : Dev nD,
      r.2.mem ((c.tc : Thread nD τ).loc main_v2) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 0).trans ((((dats m 0 c).arrAt_in 0 rfl _).trans ((A_eq m c 0).trans (V_main_arg0 m c)))),
      ((h c).1 1).trans ((((dats m 0 c).arrAt_in 1 rfl _).trans ((A_eq m c 1).trans (V_main_arg1 m c)))),
      ((h c).1 2).trans ((((dats m 0 c).arrAt_in 2 rfl _).trans ((A_eq m c 2).trans (V_main_arg2 m c)))),
      ((h c).2 main_arg3 (Pipeline.mem_restRefs_of main_arg3 (by decide) (by decide))).trans (V_main_arg3 m c),
      ((h c).1 4).trans ((((dats m 0 c).arrAt_in 4 rfl _).trans ((A_eq m c 4).trans (V_main_arg4 m c)))),
      ((h c).2 main_arg5 (Pipeline.mem_restRefs_of main_arg5 (by decide) (by decide))).trans (V_main_arg5 m c)⟩)
    (run_main (F := Ideal) m ρ)

end Cert.KernelIdeal.Body

end
-- ==== Proof.Value.Reference.lean ====
/-
  The reference's result, read one entry at a time. Its stages are the specification's, in the same order and with
  the same sums: x · W1; A times that plus the bias row, clamped below at zero; that times W2; A times that plus
  the second bias row. The generated reading lemmas give each stage at an index through index functions built by
  cases on the axis; here those are identified with plain coordinates.
-/
import proofs.«128231_g79963701117591_cont_9to1c4b_293_3_alg».proof.Proof.Gen.ReferenceIdeal.Read
import proofs.«128231_g79963701117591_cont_9to1c4b_293_3_alg».proof.Proof.Value.Spec

noncomputable section

namespace Cert.ReferenceIdeal.RefValue

open Idealize.ShloMosaic Idealize.ShloMosaic.ValueIdx
open Cert.ReferenceIdeal Cert.ReferenceIdeal.Read Cert.GraphConv

/-- The float zero, as an extended real. -/
abbrev fzero : EReal := FloatOps.ofBits (F := Ideal) .f32 0x00000000#32

/-! ## The index functions in coordinates -/

theorem l0 (r : Fin 10000) (k j : Fin 128) : lidx_main_v0 (ix2 r k) j = ix2 r j :=
  funext fun a => Fin.ext (by match a with | ⟨0, _⟩ => rfl | ⟨1, _⟩ => rfl)
theorem r0 (r : Fin 10000) (k j : Fin 128) : ridx_main_v0 (ix2 r k) j = ix2 j k :=
  funext fun a => Fin.ext (by match a with | ⟨0, _⟩ => rfl | ⟨1, _⟩ => rfl)
theorem l1 (r : Fin 10000) (k : Fin 128) (l : Fin 10000) : lidx_main_v1 (ix2 r k) l = ix2 r l :=
  funext fun a => Fin.ext (by match a with | ⟨0, _⟩ => rfl | ⟨1, _⟩ => rfl)
theorem r1 (r : Fin 10000) (k : Fin 128) (l : Fin 10000) : ridx_main_v1 (ix2 r k) l = ix2 l k :=
  funext fun a => Fin.ext (by match a with | ⟨0, _⟩ => rfl | ⟨1, _⟩ => rfl)
theorem l7 (r : Fin 10000) (q k : Fin 128) : lidx_main_v7 (ix2 r q) k = ix2 r k :=
  funext fun a => Fin.ext (by match a with | ⟨0, _⟩ => rfl | ⟨1, _⟩ => rfl)
theorem r7 (r : Fin 10000) (q k : Fin 128) : ridx_main_v7 (ix2 r q) k = ix2 k q :=
  funext fun a => Fin.ext (by match a with | ⟨0, _⟩ => rfl | ⟨1, _⟩ => rfl)
theorem l8 (r : Fin 10000) (q : Fin 128) (l : Fin 10000) : lidx_main_v8 (ix2 r q) l = ix2 r l :=
  funext fun a => Fin.ext (by match a with | ⟨0, _⟩ => rfl | ⟨1, _⟩ => rfl)
theorem r8 (r : Fin 10000) (q : Fin 128) (l : Fin 10000) : ridx_main_v8 (ix2 r q) l = ix2 l q :=
  funext fun a => Fin.ext (by match a with | ⟨0, _⟩ => rfl | ⟨1, _⟩ => rfl)
theorem i3 (r : Fin 10000) (k : Fin 128) : idx_main_v2 (idx_main_v3 (ix2 r k)) = ix1 k :=
  funext fun a => Fin.ext (by match a with | ⟨0, _⟩ => rfl)
theorem i10 (r : Fin 10000) (k : Fin 128) : idx_main_v9 (idx_main_v10 (ix2 r k)) = ix1 k :=
  funext fun a => Fin.ext (by match a with | ⟨0, _⟩ => rfl)

/-! ## The stages -/

variable (X : (⟨S10000x128, .f32⟩ : BufTy).Contents (Elt Ideal)) (A : (⟨S10000x10000, .f32⟩ : BufTy).Contents (Elt Ideal))
  (W1 : (⟨S128x128, .f32⟩ : BufTy).Contents (Elt Ideal)) (b1 : (⟨S128, .f32⟩ : BufTy).Contents (Elt Ideal))
  (W2 : (⟨S128x128, .f32⟩ : BufTy).Contents (Elt Ideal)) (b2 : (⟨S128, .f32⟩ : BufTy).Contents (Elt Ideal))

theorem v0_at (r : Fin 10000) (k : Fin 128) : val_main_v0 (F := Ideal) X W1 (ix2 r k) = s1 X W1 r k := by
  rw [val_main_v0_apply]
  exact Finset.sum_congr rfl fun j _ => by rw [l0, r0]

theorem v1_at (r : Fin 10000) (k : Fin 128) :
    val_main_v1 (F := Ideal) X A W1 (ix2 r k) = ∑ l : Fin 10000, A (ix2 r l) * s1 X W1 l k := by
  rw [val_main_v1_apply]
  exact Finset.sum_congr rfl fun l _ => by rw [l1, r1, v0_at]

theorem v3_at (r : Fin 10000) (k : Fin 128) : val_main_v3 (F := Ideal) b1 (ix2 r k) = b1 (ix1 k) := by
  rw [val_main_v3_apply, val_main_v2_apply, i3]

theorem v6_at (r : Fin 10000) (k : Fin 128) : val_main_v6 (F := Ideal) X A W1 b1 (ix2 r k) = hid X A W1 b1 fzero r k := by
  rw [val_main_v6_apply, val_main_v4_apply, v1_at, v3_at, val_main_v5_apply, val_main_cst_apply]
  rfl

theorem v7_at (r : Fin 10000) (q : Fin 128) : val_main_v7 (F := Ideal) X A W1 b1 W2 (ix2 r q) = s2 X A W1 b1 W2 fzero r q := by
  rw [val_main_v7_apply]
  exact Finset.sum_congr rfl fun k _ => by rw [l7, r7, v6_at]

theorem v8_at (r : Fin 10000) (q : Fin 128) :
    val_main_v8 (F := Ideal) X A W1 b1 W2 (ix2 r q) = ∑ l : Fin 10000, A (ix2 r l) * s2 X A W1 b1 W2 fzero l q := by
  rw [val_main_v8_apply]
  exact Finset.sum_congr rfl fun l _ => by rw [l8, r8, v7_at]

theorem v10_at (r : Fin 10000) (q : Fin 128) : val_main_v10 (F := Ideal) b2 (ix2 r q) = b2 (ix1 q) := by
  rw [val_main_v10_apply, val_main_v9_apply, i10]

/-- The reference's result at (r, q) is the specification's. -/
theorem v11_at (r : Fin 10000) (q : Fin 128) :
    val_main_v11 (F := Ideal) X A W1 b1 W2 b2 (ix2 r q) = out X A W1 b1 W2 b2 fzero r q := by
  rw [val_main_v11_apply, v8_at, v10_at]
  rfl

/-- The reference's result array is the specification's result at every entry. -/
theorem result_eq : val_main_v11 (F := Ideal) X A W1 b1 W2 b2 = fun i => out X A W1 b1 W2 b2 fzero (i 0) (i 1) := by
  funext i
  obtain ⟨r, q, rfl⟩ : ∃ (r : Fin 10000) (q : Fin 128), i = ix2 r q := ⟨i 0, i 1, eq_ix2 i⟩
  exact v11_at X A W1 b1 W2 b2 r q

end Cert.ReferenceIdeal.RefValue

end
-- ==== Proof.lean ====
/-
  The fused two-layer graph convolution against its plain reference.

  The kernel computes out = A · (relu(A · (x · W1) + b1) · W2) + b2 in one call over a 2 × 25 grid. The first pass
  (points 0 … 24) keeps x · W1 in a scratch and fills a second scratch, 400 rows per point, with
  relu(A_j · s1 + b1) · W2 from the adjacency's row block A_j; the second pass (points 25 … 49) streams the row blocks
  again and writes A_j · s2 + b2 to rows 400·j … of the result. The reference computes the same four stages on whole
  arrays. Over the extended reals every matrix product is a plain sum over the contracted axis, and row r of each
  stage uses A only through its row r, so the blockwise stages are the whole-array stages restricted to the
  block's rows: the two results are the same sums, entry by entry, and no precondition on the inputs is used.

  The frames: between grid points the first scratch holds x · W1 and the second has its rows below 400·min(n, 25)
  final; the body's triple at each of the three kinds of point (the first, a later one of the first pass, one of
  the second pass) re-establishes that, hands every input buffer back untouched, and leaves the output block alone
  until the second pass stores it whole. That argument reads no float operation, so it is the same at the word
  level and at the ideal level. The idealization rewrote nothing, so it preserves the kernel trivially.
-/
import proofs.«128231_g79963701117591_cont_9to1c4b_293_3_alg».proof.Defs
import proofs.«128231_g79963701117591_cont_9to1c4b_293_3_alg».proof.Proof.Gen.Kernel
import proofs.«128231_g79963701117591_cont_9to1c4b_293_3_alg».proof.Proof.Gen.KernelIdeal
import proofs.«128231_g79963701117591_cont_9to1c4b_293_3_alg».proof.Proof.Gen.ReferenceIdeal
import proofs.«128231_g79963701117591_cont_9to1c4b_293_3_alg».proof.Proof.Gen.Pre_finite_inputs
import proofs.«128231_g79963701117591_cont_9to1c4b_293_3_alg».proof.Proof.BitsBody.Obligation
import proofs.«128231_g79963701117591_cont_9to1c4b_293_3_alg».proof.Proof.Value.Kernel
import proofs.«128231_g79963701117591_cont_9to1c4b_293_3_alg».proof.Proof.Value.Reference
import Idealize.ShloMosaic.Adequacy
import Idealize.ShloMosaic.Init

noncomputable section

namespace Cert.Proof

open Idealize.ShloMosaic Idealize.ShloMosaic.TcCoe Idealize.SL.Sem

/-- The word-level kernel terminates without fault and leaves its arguments unchanged. -/
theorem frame_kernel : Cert.frame_Kernel := fun m ρ _ => Cert.Kernel.Body.frame (F := Bits) m ρ

/-- So does its idealization. -/
theorem frame_kernelIdeal : Cert.frame_KernelIdeal := fun m ρ _ => Cert.KernelIdeal.Body.frame (F := Ideal) m ρ

/-- The reference is straight-line host code: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the specification's result array. -/
theorem algebraic : Cert.algebraic_KernelIdeal_ReferenceIdeal := by
  intro m ρ m' ρ' _ hagree
  refine ⟨fun c => Cert.KernelIdeal.Body.resultArr m c, Cert.KernelIdeal.Body.value_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v11_eq _ _ _ _ _ _).trans ?_
  rw [Cert.ReferenceIdeal.RefValue.result_eq, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
